-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x1024x64 : Shape := ⟨4, ![8, 16, 1024, 64]⟩
abbrev S1023x1023 : Shape := ⟨2, ![1023, 1023]⟩
abbrev S_ : Shape := ⟨0, ![]⟩

class Facts : Prop where
  bcast_S_S8x16x1024x64 : S_.BroadcastsInDim S8x16x1024x64 (![] : Fin 0 → Fin S8x16x1024x64.rank)
  reducesTo_S8x16x1024x64_S_d0_1_2_3 : S8x16x1024x64.ReducesTo [0, 1, 2, 3] S_
  h_S_ : 0 < S_.numel
  bcast_S_S1023x1023 : S_.BroadcastsInDim S1023x1023 (![] : Fin 0 → Fin S1023x1023.rank)
  reducesTo_S1023x1023_S_d0_1 : S1023x1023.ReducesTo [0, 1] S_

variable [Facts]

def fn_part1 {F : FTy → Type} [FloatOps F] (main_v13 : IVec S_ 1) (main_v16 : IVec S1023x1023 1) : IVec S_ 1 :=
  let main_c_5 : IVec S_ 1 := constantI S_ 1 1#1
  let main_v17 : IVec S_ 1 := (fun x v => Host.reduce IntOp.andi x v reducesTo_S1023x1023_S_d0_1 h_S_) main_v16 main_c_5
  let main_v18 : IVec S_ 1 := andi main_v13 main_v17
  main_v18

def fn {F : FTy → Type} [FloatOps F] (main_arg0 : FVec F S8x16x1024x64 .f32) (main_arg1 : FVec F S8x16x1024x64 .f32) (main_arg2 : FVec F S8x16x1024x64 .f32) (main_arg3 : FVec F S1023x1023 .f32) : IVec S_ 1 :=
  let main_v0 : FVec F S8x16x1024x64 .f32 := Host.absf main_arg0
  let main_cst : FVec F S_ .f32 := constant S_ .f32 0x7F800000#32
  let main_v1 : FVec F S8x16x1024x64 .f32 := broadcastInDim S8x16x1024x64 ![] bcast_S_S8x16x1024x64 main_cst
  let main_v2 : IVec S8x16x1024x64 1 := cmpf .olt main_v0 main_v1
  let main_c : IVec S_ 1 := constantI S_ 1 1#1
  let main_v3 : IVec S_ 1 := (fun x v => Host.reduce IntOp.andi x v reducesTo_S8x16x1024x64_S_d0_1_2_3 h_S_) main_v2 main_c
  let main_v4 : FVec F S8x16x1024x64 .f32 := Host.absf main_arg1
  let main_cst_0 : FVec F S_ .f32 := constant S_ .f32 0x7F800000#32
  let main_v5 : FVec F S8x16x1024x64 .f32 := broadcastInDim S8x16x1024x64 ![] bcast_S_S8x16x1024x64 main_cst_0
  let main_v6 : IVec S8x16x1024x64 1 := cmpf .olt main_v4 main_v5
  let main_c_1 : IVec S_ 1 := constantI S_ 1 1#1
  let main_v7 : IVec S_ 1 := (fun x v => Host.reduce IntOp.andi x v reducesTo_S8x16x1024x64_S_d0_1_2_3 h_S_) main_v6 main_c_1
  let main_v8 : IVec S_ 1 := andi main_v3 main_v7
  let main_v9 : FVec F S8x16x1024x64 .f32 := Host.absf main_arg2
  let main_cst_2 : FVec F S_ .f32 := constant S_ .f32 0x7F800000#32
  let main_v10 : FVec F S8x16x1024x64 .f32 := broadcastInDim S8x16x1024x64 ![] bcast_S_S8x16x1024x64 main_cst_2
  let main_v11 : IVec S8x16x1024x64 1 := cmpf .olt main_v9 main_v10
  let main_c_3 : IVec S_ 1 := constantI S_ 1 1#1
  let main_v12 : IVec S_ 1 := (fun x v => Host.reduce IntOp.andi x v reducesTo_S8x16x1024x64_S_d0_1_2_3 h_S_) main_v11 main_c_3
  let main_v13 : IVec S_ 1 := andi main_v8 main_v12
  let main_v14 : FVec F S1023x1023 .f32 := Host.absf main_arg3
  let main_cst_4 : FVec F S_ .f32 := constant S_ .f32 0x7F800000#32
  let main_v15 : FVec F S1023x1023 .f32 := broadcastInDim S1023x1023 ![] bcast_S_S1023x1023 main_cst_4
  let main_v16 : IVec S1023x1023 1 := cmpf .olt main_v14 main_v15
  fn_part1 (F := F) main_v13 main_v16
-- ==== Kernel.lean ====
abbrev S8x16x1024x64 : Shape := ⟨4, ![8, 16, 1024, 64]⟩
abbrev S1023x1023 : Shape := ⟨2, ![1023, 1023]⟩
abbrev S_ : Shape := ⟨0, ![]⟩
abbrev S1024x1024 : Shape := ⟨2, ![1024, 1024]⟩
abbrev S8x16x1024x1024 : Shape := ⟨4, ![8, 16, 1024, 1024]⟩
abbrev S1x1x256x64 : Shape := ⟨4, ![1, 1, 256, 64]⟩
abbrev S1x1x1024x64 : Shape := ⟨4, ![1, 1, 1024, 64]⟩
abbrev S1x1x256x1024 : Shape := ⟨4, ![1, 1, 256, 1024]⟩
abbrev S256x64 : Shape := ⟨2, ![256, 64]⟩
abbrev S1024x64 : Shape := ⟨2, ![1024, 64]⟩
abbrev S256x1024 : Shape := ⟨2, ![256, 1024]⟩
abbrev S256 : Shape := ⟨1, ![256]⟩
abbrev S256x1 : Shape := ⟨2, ![256, 1]⟩

abbrev nBuf : Space → Nat
  | .hbm => 12
  | .vmem => 11
  | .smem => 0
  | _ => 0

abbrev bufTy : (tb : Table) → Fin (tcTables nBuf tb) → BufTy
  | .hbm, ⟨0, _⟩ => ⟨S8x16x1024x64, .f32⟩
  | .hbm, ⟨1, _⟩ => ⟨S8x16x1024x64, .f32⟩
  | .hbm, ⟨2, _⟩ => ⟨S8x16x1024x64, .f32⟩
  | .hbm, ⟨3, _⟩ => ⟨S1023x1023, .f32⟩
  | .hbm, ⟨4, _⟩ => ⟨S_, .i32⟩
  | .hbm, ⟨5, _⟩ => ⟨S_, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S8x16x1024x64, .f32⟩
  | .hbm, ⟨11, _⟩ => ⟨S8x16x1024x1024, .f32⟩
  | .local _ .vmem, ⟨0, _⟩ => ⟨S1x1x256x64, .f32⟩
  | .local _ .vmem, ⟨1, _⟩ => ⟨S1x1x256x64, .f32⟩
  | .local _ .vmem, ⟨2, _⟩ => ⟨S1x1x1024x64, .f32⟩
  | .local _ .vmem, ⟨3, _⟩ => ⟨S1x1x1024x64, .f32⟩
  | .local _ .vmem, ⟨4, _⟩ => ⟨S1x1x1024x64, .f32⟩
  | .local _ .vmem, ⟨5, _⟩ => ⟨S1x1x1024x64, .f32⟩
  | .local _ .vmem, ⟨6, _⟩ => ⟨S1024x1024, .f32⟩
  | .local _ .vmem, ⟨7, _⟩ => ⟨S1x1x256x64, .f32⟩
  | .local _ .vmem, ⟨8, _⟩ => ⟨S1x1x256x64, .f32⟩
  | .local _ .vmem, ⟨9, _⟩ => ⟨S1x1x256x1024, .f32⟩
  | .local _ .vmem, ⟨10, _⟩ => ⟨S1x1x256x1024, .f32⟩
  | _, _ => ⟨S8x16x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 16, 4], ![false, false, false]⟩

def k0_mult1 (i : grid0.Coords) : BitVec 32 :=
  let arg2 : BitVec 32 := BitVec.ofNat 32 (i 2).val
  let c256_i32 : BitVec 32 := 256#32
  let v0 : BitVec 32 := Scalar.muli arg2 c256_i32
  v0
def k0_off1 (i : grid0.Coords) : Fin 2 → Nat :=
  let arg2 : BitVec 32 := BitVec.ofNat 32 (i 2).val
  let c256_i32 : BitVec 32 := 256#32
  let v0 : BitVec 32 := Scalar.muli arg2 c256_i32
  let v1 : BitVec 32 := v0
  let v6 : Index := Scalar.indexCast v1
  let c0_7 : Index := 0#32
  ![v6.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  pads_S1023x1023_S1024x1024_100_100 : S1023x1023.Pads (![1, 1] : Fin 2 → Nat) ![0, 0] ![0, 0] S1024x1024
  h_S_ : 0 < S_.numel
  bcast_S_S1024x1024 : S_.BroadcastsInDim S1024x1024 (![] : Fin 0 → Fin S1024x1024.rank)
  inb_S1x1x256x64_S1x1x256x64_0_0_0_0 : ∀ a, (![0, 0, 0, 0] : Fin 4 → Nat) a + S1x1x256x64.size a ≤ S1x1x256x64.size a
  h_S1x1x256x64 : 0 < S1x1x256x64.numel
  shapeCasts_S1x1x256x64_S256x64 : S1x1x256x64.ShapeCasts S256x64
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  h_S256x1024 : 0 < S256x1024.numel
  shapeCasts_S256x1024_S256x1024 : S256x1024.ShapeCasts S256x1024
  reduces_S256x1024_S256 : S256x1024.Reduces [1] S256
  shapeCasts_S256_S256x1 : S256.ShapeCasts S256x1
  broadcasts_S256x1_S256x1024 : S256x1.Broadcasts S256x1024
  inb_S1x1x256x1024_S1x1x256x1024_0_0_0_0 : ∀ a, (![0, 0, 0, 0] : Fin 4 → Nat) a + S1x1x256x1024.size a ≤ S1x1x256x1024.size a
  h_S1x1x256x1024 : 0 < S1x1x256x1024.numel
  shapeCasts_S1x1x256x1024_S256x1024 : S1x1x256x1024.ShapeCasts S256x1024
  shapeCasts_S256x1024_S1x1x256x1024 : S256x1024.ShapeCasts S1x1x256x1024
  shapeCasts_S256x64_S1x1x256x64 : S256x64.ShapeCasts S1x1x256x64
  dot_S256x64_S1024x64_S256x1024_1_1_0_0_n_n_wf : DotDims.WF S256x64 S1024x64 S256x1024 [1] [1] [0] [0] [] []
  dot_S256x1024_S1024x64_S256x64_1_0_0_1_n_n_wf : DotDims.WF S256x1024 S1024x64 S256x64 [1] [0] [0] [1] [] []
  hrank0 : 0 < grid0.rank
  k0_mult1_dvd : ∀ i : grid0.Coords, 256 ∣ (k0_mult1 i).toNat
  k0_off1_inb : ∀ i : grid0.Coords, ∀ a, (k0_off1 i) a + S256x1024.size a ≤ S1024x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256x64.size a ≤ S8x16x1024x64.size a
  hwx0_0 : ∀ i : grid0.Coords, EltTy.bits .f32 = 32 ∨ (Rect.block (s := S8x16x1024x64) S1x1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x64.size a ≤ S8x16x1024x64.size a
  hwx0_1 : ∀ i : grid0.Coords, EltTy.bits .f32 = 32 ∨ (Rect.block (s := S8x16x1024x64) S1x1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024x64.size a ≤ S8x16x1024x64.size a
  hwx0_2 : ∀ i : grid0.Coords, EltTy.bits .f32 = 32 ∨ (Rect.block (s := S8x16x1024x64) S1x1x1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256x64.size a ≤ S8x16x1024x64.size a
  hwx0_4 : ∀ i : grid0.Coords, EltTy.bits .f32 = 32 ∨ (Rect.block (s := S8x16x1024x64) S1x1x256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256x1024.size a ≤ S8x16x1024x1024.size a
  hwx0_5 : ∀ i : grid0.Coords, EltTy.bits .f32 = 32 ∨ (Rect.block (s := S8x16x1024x1024) S1x1x256x1024.size (cc0_transform_5 i) (hinb0_5 i)).WholeWords (EltTy.packing .f32)

variable [Facts₀]

def dot_S256x64_S1024x64_S256x1024_1_1_0_0_n_n : DotDims S256x64 S1024x64 S256x1024 where
  lhsContracting := [1]
  rhsContracting := [1]
  lhsNonContracting := [0]
  rhsNonContracting := [0]
  lhsBatch := []
  rhsBatch := []
  wf := dot_S256x64_S1024x64_S256x1024_1_1_0_0_n_n_wf
def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf

abbrev win0_0 : Pipeline.Window sig grid0 :=
  Pipeline.Window.ofSpec (Memref.whole main_arg0) S1x1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S1x1x256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S1x1x256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x16x1024x64 : Shape := ⟨4, ![8, 16, 1024, 64]⟩
abbrev S1023x1023 : Shape := ⟨2, ![1023, 1023]⟩
abbrev S8x16x1024x1024 : Shape := ⟨4, ![8, 16, 1024, 1024]⟩
abbrev S_ : Shape := ⟨0, ![]⟩
abbrev S1024x1024 : Shape := ⟨2, ![1024, 1024]⟩
abbrev S1x1x1024x1024 : Shape := ⟨4, ![1, 1, 1024, 1024]⟩
abbrev S8x16x1024 : Shape := ⟨3, ![8, 16, 1024]⟩
abbrev S8x16x1024x1 : Shape := ⟨4, ![8, 16, 1024, 1]⟩

abbrev nBuf : Space → Nat
  | .hbm => 33
  | .vmem => 0
  | .smem => 0
  | _ => 0

abbrev bufTy : (tb : Table) → Fin (tcTables nBuf tb) → BufTy
  | .hbm, ⟨0, _⟩ => ⟨S8x16x1024x64, .f32⟩
  | .hbm, ⟨1, _⟩ => ⟨S8x16x1024x64, .f32⟩
  | .hbm, ⟨2, _⟩ => ⟨S8x16x1024x64, .f32⟩
  | .hbm, ⟨3, _⟩ => ⟨S1023x1023, .f32⟩
  | .hbm, ⟨4, _⟩ => ⟨S8x16x1024x1024, .f32⟩
  | .hbm, ⟨5, _⟩ => ⟨S_, .f32⟩
  | .hbm, ⟨6, _⟩ => ⟨S_, .f32⟩
  | .hbm, ⟨7, _⟩ => ⟨S8x16x1024x1024, .f32⟩
  | .hbm, ⟨8, _⟩ => ⟨S8x16x1024x1024, .f32⟩
  | .hbm, ⟨9, _⟩ => ⟨S_, .i32⟩
  | .hbm, ⟨10, _⟩ => ⟨S_, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1x1x1024x1024, .f32⟩
  | .hbm, ⟨16, _⟩ => ⟨S8x16x1024x1024, .f32⟩
  | .hbm, ⟨17, _⟩ => ⟨S8x16x1024x1024, .f32⟩
  | .hbm, ⟨18, _⟩ => ⟨S_, .f32⟩
  | .hbm, ⟨19, _⟩ => ⟨S8x16x1024, .f32⟩
  | .hbm, ⟨20, _⟩ => ⟨S_, .f32⟩
  | .hbm, ⟨21, _⟩ => ⟨S8x16x1024, .f32⟩
  | .hbm, ⟨22, _⟩ => ⟨S8x16x1024, .f32⟩
  | .hbm, ⟨23, _⟩ => ⟨S8x16x1024x1, .f32⟩
  | .hbm, ⟨24, _⟩ => ⟨S8x16x1024x1024, .f32⟩
  | .hbm, ⟨25, _⟩ => ⟨S8x16x1024x1024, .f32⟩
  | .hbm, ⟨26, _⟩ => ⟨S8x16x1024x1024, .f32⟩
  | .hbm, ⟨27, _⟩ => ⟨S_, .f32⟩
  | .hbm, ⟨28, _⟩ => ⟨S8x16x1024, .f32⟩
  | .hbm, ⟨29, _⟩ => ⟨S8x16x1024x1, .f32⟩
  | .hbm, ⟨30, _⟩ => ⟨S8x16x1024x1024, .f32⟩
  | .hbm, ⟨31, _⟩ => ⟨S8x16x1024x1024, .f32⟩
  | .hbm, ⟨32, _⟩ => ⟨S8x16x1024x64, .f32⟩
  | _, _ => ⟨S8x16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  bcast_S_S8x16x1024x1024 : S_.BroadcastsInDim S8x16x1024x1024 (![] : Fin 0 → Fin S8x16x1024x1024.rank)
  pads_S1023x1023_S1024x1024_100_100 : S1023x1023.Pads (![1, 1] : Fin 2 → Nat) ![0, 0] ![0, 0] S1024x1024
  h_S_ : 0 < S_.numel
  bcast_S_S1024x1024 : S_.BroadcastsInDim S1024x1024 (![] : Fin 0 → Fin S1024x1024.rank)
  bcast_S1024x1024_S1x1x1024x1024_2_3 : S1024x1024.BroadcastsInDim S1x1x1024x1024 (![2, 3] : Fin 2 → Fin S1x1x1024x1024.rank)
  bcast_S1x1x1024x1024_S8x16x1024x1024_0_1_2_3 : S1x1x1024x1024.BroadcastsInDim S8x16x1024x1024 (![0, 1, 2, 3] : Fin 4 → Fin S8x16x1024x1024.rank)
  reducesTo_S8x16x1024x1024_S8x16x1024_d3 : S8x16x1024x1024.ReducesTo [3] S8x16x1024
  bcast_S_S8x16x1024 : S_.BroadcastsInDim S8x16x1024 (![] : Fin 0 → Fin S8x16x1024.rank)
  bcast_S8x16x1024_S8x16x1024x1_0_1_2 : S8x16x1024.BroadcastsInDim S8x16x1024x1 (![0, 1, 2] : Fin 3 → Fin S8x16x1024x1.rank)
  bcast_S8x16x1024x1_S8x16x1024x1024_0_1_2_3 : S8x16x1024x1.BroadcastsInDim S8x16x1024x1024 (![0, 1, 2, 3] : Fin 4 → Fin S8x16x1024x1024.rank)
  dot_S8x16x1024x64_S8x16x1024x64_S8x16x1024x1024_3_3_2_2_01_01_wf : DotDims.WF S8x16x1024x64 S8x16x1024x64 S8x16x1024x1024 [3] [3] [2] [2] [0, 1] [0, 1]
  dot_S8x16x1024x1024_S8x16x1024x64_S8x16x1024x64_3_2_2_3_01_01_wf : DotDims.WF S8x16x1024x1024 S8x16x1024x64 S8x16x1024x64 [3] [2] [2] [3] [0, 1] [0, 1]

variable [Facts₀]

def dot_S8x16x1024x64_S8x16x1024x64_S8x16x1024x1024_3_3_2_2_01_01 : DotDims S8x16x1024x64 S8x16x1024x64 S8x16x1024x1024 where
  lhsContracting := [3]
  rhsContracting := [3]
  lhsNonContracting := [2]
  rhsNonContracting := [2]
  lhsBatch := [0, 1]
  rhsBatch := [0, 1]
  wf := dot_S8x16x1024x64_S8x16x1024x64_S8x16x1024x1024_3_3_2_2_01_01_wf
def dot_S8x16x1024x1024_S8x16x1024x64_S8x16x1024x64_3_2_2_3_01_01 : DotDims S8x16x1024x1024 S8x16x1024x64 S8x16x1024x64 where
  lhsContracting := [3]
  rhsContracting := [2]
  lhsNonContracting := [2]
  rhsNonContracting := [3]
  lhsBatch := [0, 1]
  rhsBatch := [0, 1]
  wf := dot_S8x16x1024x1024_S8x16x1024x64_S8x16x1024x64_3_2_2_3_01_01_wf

class Facts : Prop extends Facts₀ where

variable [Facts]
-- ==== Proof.KernelPieces.lean ====
/-
  What one grid point leaves in its two output blocks, as values of the blocks it read.

  The body stores each output block once, whole.  The weights block is the softmax payload of the query block, the key
  block and the 256 rows of the bias the point reads; the output block is the product of that payload with the value
  block.  The bias rows are rows 256·j … 256·j + 255 of the whole bias, j the point's third coordinate.
-/
import proofs.«121620_j32925219291316_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem zeros4 : (![0, 0, 0, 0] : Fin 4 → Nat) = fun _ => 0 := funext fun a => by fin_cases a <;> rfl

/-- The rows of the bias a point reads: 256 whole rows, from the row offset the point computes. -/
def biasRows (i : grid0.Coords) (x3 : Vec F S1024x1024 .f32) : Vec F S256x1024 .f32 :=
  View.ld x3 (Rect.unit (s := S1024x1024) (k0_off1 i) S256x1024.size (k0_off1_inb i))

/-- The weights block a point leaves: the softmax payload of its query block, key block and bias rows. -/
theorem weights_block (c : Dev nD) (i : grid0.Coords) (arg3 : Memref sig .tc .vmem S1x1x256x64 .f32) (harg3 : arg3.IsWhole) (arg4 : Memref sig .tc .vmem S1x1x1024x64 .f32) (harg4 : arg4.IsWhole) (arg5 : Memref sig .tc .vmem S1x1x1024x64 .f32) (harg5 : arg5.IsWhole) (arg6 : Memref sig .tc .vmem S1024x1024 .f32) (harg6 : arg6.IsWhole) (arg7 : Memref sig .tc .vmem S1x1x256x64 .f32) (harg7 : arg7.IsWhole) (arg8 : Memref sig .tc .vmem S1x1x256x1024 .f32) (harg8 : arg8.IsWhole)
    (x0 : Vec F S1x1x256x64 .f32) (x1 : Vec F S1x1x1024x64 .f32) (x2 : Vec F S1x1x1024x64 .f32) (x3 : Vec F S1024x1024 .f32) :
    out0_A_5 c i arg3 harg3 arg4 harg4 arg5 harg5 arg6 harg6 arg7 harg7 arg8 harg8 x0 x1 x2 x3 = k0_pay3 x0 x1 (biasRows i x3) := by
  unfold out0_A_5
  rw [View.read_writes_eq_canon _ _ _ (cover0_A_5 c i arg3 harg3 arg4 harg4 arg5 harg5 arg6 harg6 arg7 harg7 arg8 harg8 x0 x1 x2 x3)]
  unfold kernelRun0_A
  dsimp only
  rw [View.canon_unit_zero zeros4]
  rw [View.readAt_eq_ld, View.readAt_eq_ld, View.readAt_eq_ld, harg3.read_unread, harg4.read_unread, harg6.read_unread,
    View.ld_unit_zero (S := S1x1x256x64) zeros4, View.ld_unit_zero (S := S1x1x1024x64) zeros4]
  rfl

/-- The output block a point leaves: the weights payload times its value block, with the block's two unit axes put back. -/
theorem output_block (c : Dev nD) (i : grid0.Coords) (arg3 : Memref sig .tc .vmem S1x1x256x64 .f32) (harg3 : arg3.IsWhole) (arg4 : Memref sig .tc .vmem S1x1x1024x64 .f32) (harg4 : arg4.IsWhole) (arg5 : Memref sig .tc .vmem S1x1x1024x64 .f32) (harg5 : arg5.IsWhole) (arg6 : Memref sig .tc .vmem S1024x1024 .f32) (harg6 : arg6.IsWhole) (arg7 : Memref sig .tc .vmem S1x1x256x64 .f32) (harg7 : arg7.IsWhole) (arg8 : Memref sig .tc .vmem S1x1x256x1024 .f32) (harg8 : arg8.IsWhole)
    (x0 : Vec F S1x1x256x64 .f32) (x1 : Vec F S1x1x1024x64 .f32) (x2 : Vec F S1x1x1024x64 .f32) (x3 : Vec F S1024x1024 .f32) :
    out0_A_4 c i arg3 harg3 arg4 harg4 arg5 harg5 arg6 harg6 arg7 harg7 arg8 harg8 x0 x1 x2 x3 = k0_pay1 (k0_pay4 x0 x1 (biasRows i x3) x2) := by
  unfold out0_A_4
  rw [View.read_writes_eq_canon _ _ _ (cover0_A_4 c i arg3 harg3 arg4 harg4 arg5 harg5 arg6 harg6 arg7 harg7 arg8 harg8 x0 x1 x2 x3)]
  unfold kernelRun0_A
  dsimp only
  sl_unfold_words
  rw [View.canon_unit_zero zeros4]
  rw [View.readAt_eq_ld, View.readAt_eq_ld, View.readAt_eq_ld, View.readAt_eq_ld, harg3.read_unread, harg4.read_unread,
    harg5.read_unread, harg6.read_unread, View.ld_unit_zero (S := S1x1x256x64) zeros4,
    View.ld_unit_zero (S := S1x1x1024x64) zeros4, View.ld_unit_zero (S := S1x1x1024x64) zeros4]
  rfl

end Cert.KernelIdeal.Pieces

end
-- ==== Proof.Spec.lean ====
/-
  Scaled dot-product attention with an additive bias, as functions of the argument arrays, index by index, on the
  extended reals.

  One query row against all key rows.  With a query row Q (64 entries), the key rows K and value rows V (1024 rows of
  64 entries) and the row's bias B (1024 entries):
    logit t  = (Σ_d Q d · K t d) · (1/8) + B t,
    the maximum is taken from -∞ over t,
    weight t = exp(logit t - max) / Σ_t exp(logit t - max),
    out d    = Σ_t weight t · V t d.
  The arrays of the two programs are these row functions at the row (b, h, s): Q = q[b,h,s,·], K = k[b,h,·,·],
  V = v[b,h,·,·], B = bias[s,·].

  The one law used between the two programs: dividing by the square root of 64 is multiplying by 1/8, on every
  extended real, because 64 = 8² and a quotient by a non-zero real is the product with its reciprocal.
-/
import Idealize.ShloMosaic.PureOps.Ideal
import Idealize.ShloMosaic.PureOps.Ideal.Laws
import Idealize.ShloMosaic.Lib.ValueIdx

noncomputable section

open scoped BigOperators

namespace Cert.Attn

open Idealize.ShloMosaic Idealize.ShloMosaic.ValueIdx

/-- -∞, as the pattern both programs start their maxima from. -/
abbrev negInf : EReal := Ideal.ofBits .f32 0xFF800000#32
/-- The scale 1/8, as the pattern the kernel multiplies by. -/
abbrev eighth : EReal := Ideal.ofBits .f32 0x3E000000#32

/-! ## One query row -/

section Row

variable (Q : Fin 64 → EReal) (K V : Fin 1024 → Fin 64 → EReal) (B : Fin 1024 → EReal)

/-- The logit of the query row against key row t. -/
def rowLogit (t : Fin 1024) : EReal := (∑ d : Fin 64, Q d * K t d) * eighth + B t

/-- The row's largest logit. -/
def rowMax : EReal := (Finset.univ : Finset (Fin 1024)).fold max negInf (fun t => rowLogit Q K B t)

/-- The exponential of a logit, shifted by the row's maximum. -/
def rowExp (t : Fin 1024) : EReal := Ideal.exp (rowLogit Q K B t - rowMax Q K B)

/-- The sum of the row's exponentials. -/
def rowSum : EReal := ∑ t : Fin 1024, rowExp Q K B t

/-- The attention weight of key row t. -/
def rowWeight (t : Fin 1024) : EReal := Ideal.div (rowExp Q K B t) (rowSum Q K B)

/-- The output entry d: the row's weights against column d of V. -/
def rowOut (d : Fin 64) : EReal := ∑ t : Fin 1024, rowWeight Q K B t * V t d

end Row

/-! ## The arrays -/

/-- The four-axis arrays q, k, v and the output. -/
abbrev Sqkv : Shape := ⟨4, ![8, 16, 1024, 64]⟩
/-- The four-axis array of weights. -/
abbrev Sw : Shape := ⟨4, ![8, 16, 1024, 1024]⟩
/-- The bias, one entry per (query row, key row). -/
abbrev Sb : Shape := ⟨2, ![1024, 1024]⟩

variable (q k v : Sqkv.Idx → EReal) (bias : Sb.Idx → EReal)

/-- The array of weights: entry (b, h, s, t) is the weight of key row t for the query row (b, h, s). -/
def weights : Sw.Idx → EReal := fun i =>
  rowWeight (fun d => q (ix4 (i 0) (i 1) (i 2) d)) (fun t d => k (ix4 (i 0) (i 1) t d)) (fun t => bias (ix2 (i 2) t)) (i 3)

/-- The output array: entry (b, h, s, d). -/
def output : Sqkv.Idx → EReal := fun i =>
  rowOut (fun d => q (ix4 (i 0) (i 1) (i 2) d)) (fun t d => k (ix4 (i 0) (i 1) t d)) (fun t d => v (ix4 (i 0) (i 1) t d))
    (fun t => bias (ix2 (i 2) t)) (i 3)

/-! ## The scale, and -∞ -/

/-- The pattern 0x42800000 is 64. -/
theorem ofBits_sixtyfour : Ideal.ofBits .f32 0x42800000#32 = ((64 : ℝ) : EReal) := by
  simp [Ideal.ofBits, Ideal.ieee, -EReal.coe_mul]; norm_num

/-- The pattern 0x3E000000 is 1/8. -/
theorem ofBits_eighth : Ideal.ofBits .f32 0x3E000000#32 = ((1 / 8 : ℝ) : EReal) := by
  simp [Ideal.ofBits, Ideal.ieee, -EReal.coe_mul]; norm_num

/-- The square root of 64 is 8. -/
theorem sqrt_sixtyfour : Ideal.sqrt ((64 : ℝ) : EReal) = ((8 : ℝ) : EReal) := by
  rw [Ideal.sqrt_coe, if_neg (by norm_num)]
  have h : Real.sqrt 64 = 8 := by
    rw [show (64 : ℝ) = 8 ^ 2 by norm_num]
    exact Real.sqrt_sq (by norm_num)
  rw [h]

/-- A quotient by the square root of 64 is the product with 1/8, on every extended real. -/
theorem div_sqrt_sixtyfour (x : EReal) :
    Ideal.div x (Ideal.sqrt (Ideal.ofBits .f32 0x42800000#32)) = x * eighth := by
  rw [ofBits_sixtyfour, sqrt_sixtyfour, Ideal.div_coe (by norm_num : (8 : ℝ) ≠ 0)]
  exact congrArg (x * ·) ofBits_eighth.symm

/-- -∞ under a maximum changes nothing. -/
theorem max_negInf (x : EReal) : max negInf x = x := by
  have h : negInf = ⊥ := by simp [negInf, Ideal.ofBits, Ideal.ieee]
  rw [h]; exact max_eq_right bot_le

end Cert.Attn

end
-- ==== Proof.LibRowOps.lean ====
/-
  Three readings at an entry (p, q) of a two-axis array, for the shapes a row-wise reduction meets.

  A vector of one value per row, kept as a column [a, 1] and repeated along the columns, reads at (p, q) its value
  for row p.  A vector of one value per column, kept as a row [1, b] and repeated along the rows, reads at (p, q) its
  value for column q.  And the sum over the second axis of an [a, n] array, read on the extended reals, is at row p
  the sum over d of the entries (p, d).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RowOps

open Idealize.ShloMosaic Idealize.ShloMosaic.ValueIdx

variable {α : Type}

/-- One value per row, kept as a column and repeated along `b` columns: at (p, q) it is the value of row `p`. -/
theorem column_repeated_apply {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v hc) hb (ix2 p q) = v (ix1 p) := by
  refine (broadcastTo_apply _ hb (ix2 p q) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else q.val
      rw [if_pos rfl]
  · exact shapeCast_apply v hc _ _ (by
      rw [Shape.rowMajor_val_one, Shape.rowMajor_val_two]
      show p.val = p.val * 1 + 0
      omega)

/-- One value per column, kept as a row and repeated along `a` rows: at (p, q) it is the value of column `q`. -/
theorem row_repeated_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc 0 q)

/-- The sum over the second axis of an [a, n] array of extended reals: at row `p` the sum over `d` of the entries (p, d). -/
theorem sum_over_columns_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ d : Fin n, src (ix2 p d) :=
  (Ideal.multiReduction_add_single src 0x00000000#32 h hφ hacc (ix1 p)).trans
    (Finset.sum_congr rfl fun d _ => congrArg src (funext fun ax => Fin.ext (by
      match ax with
      | ⟨0, _⟩ => rfl
      | ⟨1, _⟩ => rfl)))

end Cert.RowOps

end
-- ==== Proof.LibRowMax.lean ====
/-
  The maximum over the second axis of an [a, n] array, read on the extended reals.

  A row-wise maximum that starts from -∞ (the pattern 0xFF800000) is, at row p, the fold of `max` from -∞ over the
  n entries (p, d) of the row, in any order: `max` is commutative and associative on the extended reals.
-/
import Idealize.ShloMosaic.Lib.ValueIdx
import Idealize.ShloMosaic.PureOps.Ideal.Laws

noncomputable section

namespace Cert.RowMax

open Idealize.ShloMosaic Idealize.ShloMosaic.ValueIdx

/-- The maximum over the second axis of an [a, n] array of extended reals, taken from -∞: at row `p` the fold of
    `max` from -∞ over the entries (p, d). -/
theorem max_over_columns_apply {a n : ℕ} (src : FVec Ideal ⟨2, ![a, n]⟩ .f32)
    (h : (⟨2, ![a, n]⟩ : Shape).Reduces [1] ⟨1, ![a]⟩) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin n)).fold max (Ideal.ofBits .f32 0xFF800000#32) (fun d => src (ix2 p d)) :=
  (Ideal.multiReduction_maximumf_single src 0xFF800000#32 h hφ hacc (ix1 p)).trans
    (Finset.fold_congr fun d _ => congrArg src (funext fun ax => Fin.ext (by
      match ax with
      | ⟨0, _⟩ => rfl
      | ⟨1, _⟩ => rfl)))

end Cert.RowMax

end
-- ==== Proof.LibMatmulRows.lean ====
/-
  A matrix product against the rows of the right factor, read at an entry.

  For the dimension numbers of a product with the right factor transposed — an [a, n] array times an [b, n] array,
  contracting the second axis of both, no batch axis (the einsum "qd,kd->qk") — the product accumulated onto the zero
  array is, on the extended reals, at (p, q) the sum over k of left (p, k) · right (q, k): the dot product of row p of
  the left factor with row q of the right one.  The extents are variables, so the reading does not change with a
  kernel's tiling.
-/
import Idealize.ShloMosaic.Lib.ValueIdx
import Idealize.ShloMosaic.PureOps.Ideal.Laws

noncomputable section

open scoped BigOperators

namespace Cert.MatmulRows

open Idealize.ShloMosaic Idealize.ShloMosaic.ValueIdx

/-- The dimension numbers of an [a, n] × [b, n]ᵀ product, over any witness of their well-formedness. -/
abbrev dims {a n b : ℕ}
    (wf : DotDims.WF ⟨2, ![a, n]⟩ ⟨2, ![b, n]⟩ ⟨2, ![a, b]⟩ [1] [1] [0] [0] [] []) :
    DotDims ⟨2, ![a, n]⟩ ⟨2, ![b, n]⟩ ⟨2, ![a, b]⟩ :=
  ⟨[1], [1], [0], [0], [], [], wf⟩

/-- A product against the right factor's rows, onto the zero array: at (p, q) the sum over k of
    left (p, k) · right (q, k). -/
theorem zero_acc_apply {a n b : ℕ} {φ₁ φ₂ : FTy}
    (wf : DotDims.WF ⟨2, ![a, n]⟩ ⟨2, ![b, n]⟩ ⟨2, ![a, b]⟩ [1] [1] [0] [0] [] [])
    (prec : Option ContractPrecision) (L : FVec Ideal ⟨2, ![a, n]⟩ φ₁) (R : FVec Ideal ⟨2, ![b, n]⟩ φ₂)
    (p : Fin a) (q : Fin b) :
    FloatOps.matmul (dims wf) prec L R (constant ⟨2, ![a, b]⟩ .f32 0x00000000#32) (ix2 p q)
      = ∑ k : Fin n, L (ix2 p k) * R (ix2 q k) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 q k :=
    funext fun ax => Fin.ext (by
      match ax with
      | ⟨0, _⟩ => rfl
      | ⟨1, _⟩ => exact ((dims wf).rhsIdx_val_of_single rfl _ _).trans hk)
  rw [el, er]

end Cert.MatmulRows

end
-- ==== Proof.LibPlainMatmul.lean ====
/-
  A plain matrix product read at an entry.

  For the dimension numbers of an ordinary product — an [a, n] array times an [n, b] array, contracting the second
  axis of the left with the first axis of the right, no batch axis — the product accumulated onto the zero array is, on
  the extended reals, at (p, q) the sum over k of left (p, k) · right (k, q).  The extents are variables, so the
  reading does not change with a kernel's tiling.
-/
import Idealize.ShloMosaic.Lib.ValueIdx
import Idealize.ShloMosaic.PureOps.Ideal.Laws

noncomputable section

open scoped BigOperators

namespace Cert.PlainMatmul

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- An ordinary product onto the zero array: at (p, q) the sum over k of left (p, k) · right (k, q). -/
theorem zero_acc_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 p k) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainMatmul

end
-- ==== Proof.LibTwoUnitAxes.lean ====
/-
  Two leading unit axes dropped from, or put in front of, a two-axis array, read at an entry.

  A block [1, 1, a, b] seen as [a, b] reads at (p, q) the block's entry (0, 0, p, q); an array [a, b] seen as
  [1, 1, a, b] reads at (u, v, p, q) its entry (p, q).  Both casts keep the row-major position p·b + q.  The extents
  are variables.
-/
import Idealize.ShloMosaic.Lib.Pipeline.Value
import Idealize.ShloMosaic.Lib.ValueIdx

noncomputable section

namespace Cert.TwoUnitAxes

open Idealize.ShloMosaic Idealize.ShloMosaic.ValueIdx

variable {α : Type}

/-- [1, 1, a, b] seen as [a, b]: the entry (p, q) is the block's entry (0, 0, p, q). -/
theorem drop_apply {a b : ℕ} (x : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ x h (ix2 p q) = x (ix4 (0 : Fin 1) (0 : Fin 1) p q) :=
  shapeCast_apply x h _ _ (by
    rw [Shape.rowMajor_val_four, Shape.rowMajor_val_two]
    show ((0 * 1 + 0) * a + p.val) * b + q.val = p.val * b + q.val
    simp only [Nat.zero_mul, Nat.zero_add])

/-- [a, b] seen as [1, 1, a, b]: the entry (u, v, p, q) is the array's entry (p, q). -/
theorem add_apply {a b : ℕ} (x : (⟨2, ![a, b]⟩ : Shape).Idx → α)
    (h : (⟨2, ![a, b]⟩ : Shape).ShapeCasts ⟨4, ![1, 1, a, b]⟩) (u v : Fin 1) (p : Fin a) (q : Fin b) :
    shapeCast ⟨4, ![1, 1, a, b]⟩ x h (ix4 u v p q) = x (ix2 p q) :=
  shapeCast_apply x h _ _ (by
    have hu : u.val = 0 := by omega
    have hv : v.val = 0 := by omega
    rw [Shape.rowMajor_val_four, Shape.rowMajor_val_two]
    show p.val * b + q.val = ((u.val * 1 + v.val) * a + p.val) * b + q.val
    simp only [hu, hv, Nat.zero_mul, Nat.zero_add])

end Cert.TwoUnitAxes

end
-- ==== Proof.KernelRow.lean ====
/-
  The body's arithmetic, read at an entry on the extended reals.

  The body works on a query block of 256 rows.  Its payload is a chain of whole-block operations: the product of the
  query rows with the key rows, scaled by 1/8, plus the bias rows; each row's maximum, kept as a column and repeated;
  the exponential of the difference; each row's sum, kept as a column and repeated; the quotient; and the product of
  the quotient with the value rows.  Read at row r, every stage depends on row r of the query block and of the bias
  rows only, so the weights block at (r, t) and the output block at (r, d) are the one-row functions of the
  specification at the query row r.
-/
import proofs.«121620_j32925219291316_2_alg».proof.Proof.Gen.KernelIdeal.Skeleton
import proofs.«121620_j32925219291316_2_alg».proof.Proof.Spec
import proofs.«121620_j32925219291316_2_alg».proof.Proof.LibRowOps
import proofs.«121620_j32925219291316_2_alg».proof.Proof.LibRowMax
import proofs.«121620_j32925219291316_2_alg».proof.Proof.LibMatmulRows
import proofs.«121620_j32925219291316_2_alg».proof.Proof.LibPlainMatmul
import proofs.«121620_j32925219291316_2_alg».proof.Proof.LibTwoUnitAxes
import Idealize.ShloMosaic.Lib.Pipeline.Value
import Idealize.ShloMosaic.Lib.ValueIdx

noncomputable section

open scoped BigOperators

namespace Cert.KernelIdeal.Row

open Cert.KernelIdeal Cert.KernelIdeal.Gen Idealize.ShloMosaic Idealize.ShloMosaic.ValueIdx

/-! ## The stages -/

/-- The query block as 256 rows of 64. -/
def queryRows (x0 : Vec Ideal S1x1x256x64 .f32) : FVec Ideal S256x64 .f32 :=
  shapeCast S256x64 x0 shapeCasts_S1x1x256x64_S256x64

/-- The key (or value) block as 1024 rows of 64. -/
def kvRows (x1 : Vec Ideal S1x1x1024x64 .f32) : FVec Ideal S1024x64 .f32 :=
  shapeCast S1024x64 x1 shapeCasts_S1x1x1024x64_S1024x64

/-- The logits: query rows against key rows, times 1/8, plus the bias rows. -/
def logits (Q : FVec Ideal S256x64 .f32) (K : FVec Ideal S1024x64 .f32) (M : Vec Ideal S256x1024 .f32) :
    FVec Ideal S256x1024 .f32 :=
  addf (mulf (matmul dot_S256x64_S1024x64_S256x1024_1_1_0_0_n_n (some .fp32) Q K (constant S256x1024 .f32 0x00000000#32))
      (broadcast S256x1024 (Scalar.ofBits .f32 0x3E000000#32)))
    (shapeCast S256x1024 M shapeCasts_S256x1024_S256x1024)

/-- Each row's maximum, repeated along the row. -/
def maxCols (L : FVec Ideal S256x1024 .f32) : FVec Ideal S256x1024 .f32 :=
  broadcastTo S256x1024 (shapeCast S256x1 (multiReduction .maximumf [1] S256 L 0xFF800000#32 reduces_S256x1024_S256 (.inl rfl) rfl)
    shapeCasts_S256_S256x1) broadcasts_S256x1_S256x1024

/-- The exponentials of the logits less their row's maximum. -/
def expo (L : FVec Ideal S256x1024 .f32) : FVec Ideal S256x1024 .f32 := exp (subf L (maxCols L))

/-- Each row's sum, repeated along the row. -/
def sumCols (E : FVec Ideal S256x1024 .f32) : FVec Ideal S256x1024 .f32 :=
  broadcastTo S256x1024 (shapeCast S256x1 (multiReduction .add [1] S256 E 0x00000000#32 reduces_S256x1024_S256 (.inl rfl) rfl)
    shapeCasts_S256_S256x1) broadcasts_S256x1_S256x1024

/-- The weights: each exponential over its row's sum. -/
def wts (E : FVec Ideal S256x1024 .f32) : FVec Ideal S256x1024 .f32 := divf E (sumCols E)

/-- The output rows: the weights against the value rows. -/
def outRows (W : FVec Ideal S256x1024 .f32) (V : FVec Ideal S1024x64 .f32) : FVec Ideal S256x64 .f32 :=
  matmul dot_S256x1024_S1024x64_S256x64_1_0_0_1_n_n (some .fp32) W V (constant S256x64 .f32 0x00000000#32)

/-- The body's weights payload is the chain of the stages. -/
theorem pay2_eq (x0 : Vec Ideal S1x1x256x64 .f32) (x1 : Vec Ideal S1x1x1024x64 .f32) (x7 : Vec Ideal S256x1024 .f32) :
    k0_pay2 (F := Ideal) x0 x1 x7 = wts (expo (logits (queryRows x0) (kvRows x1) x7)) := rfl

/-- The body's output payload is the weights payload against the value rows. -/
theorem pay4_eq (x0 : Vec Ideal S1x1x256x64 .f32) (x1 : Vec Ideal S1x1x1024x64 .f32) (x7 : Vec Ideal S256x1024 .f32)
    (x2 : Vec Ideal S1x1x1024x64 .f32) :
    k0_pay4 (F := Ideal) x0 x1 x7 x2 = outRows (k0_pay2 (F := Ideal) x0 x1 x7) (kvRows x2) := rfl

/-! ## Each stage at an entry -/

theorem queryRows_apply (x0 : Vec Ideal S1x1x256x64 .f32) (r : Fin 256) (d : Fin 64) :
    queryRows x0 (ix2 r d) = x0 (ix4 (0 : Fin 1) (0 : Fin 1) r d) :=
  Cert.TwoUnitAxes.drop_apply x0 _ r d

theorem kvRows_apply (x1 : Vec Ideal S1x1x1024x64 .f32) (s : Fin 1024) (d : Fin 64) :
    kvRows x1 (ix2 s d) = x1 (ix4 (0 : Fin 1) (0 : Fin 1) s d) :=
  Cert.TwoUnitAxes.drop_apply x1 _ s d

/-- A logit: the dot product of query row r with key row s, times 1/8, plus the bias entry (r, s). -/
theorem logits_apply (Q : FVec Ideal S256x64 .f32) (K : FVec Ideal S1024x64 .f32) (M : Vec Ideal S256x1024 .f32)
    (r : Fin 256) (s : Fin 1024) :
    logits Q K M (ix2 r s) = (∑ d : Fin 64, Q (ix2 r d) * K (ix2 s d)) * Cert.Attn.eighth + M (ix2 r s) := by
  unfold logits
  rw [addf_apply, mulf_apply, broadcast_apply, shapeCast_self]
  exact congrArg (fun z => z * Cert.Attn.eighth + M (ix2 r s)) (Cert.MatmulRows.zero_acc_apply _ (some .fp32) Q K r s)

/-- The repeated maximum at (r, s): the fold of max from -∞ over row r. -/
theorem maxCols_apply (L : FVec Ideal S256x1024 .f32) (r : Fin 256) (s : Fin 1024) :
    maxCols L (ix2 r s) = (Finset.univ : Finset (Fin 1024)).fold max Cert.Attn.negInf (fun s' => L (ix2 r s')) :=
  (Cert.RowOps.column_repeated_apply _ _ _ r s).trans (Cert.RowMax.max_over_columns_apply L _ _ _ r)

/-- The repeated sum at (r, s): the sum over row r. -/
theorem sumCols_apply (E : FVec Ideal S256x1024 .f32) (r : Fin 256) (s : Fin 1024) :
    sumCols E (ix2 r s) = ∑ s' : Fin 1024, E (ix2 r s') :=
  (Cert.RowOps.column_repeated_apply _ _ _ r s).trans (Cert.RowOps.sum_over_columns_apply E _ _ _ r)

/-- An output entry: the weights of row r against column d of the value rows. -/
theorem outRows_apply (W : FVec Ideal S256x1024 .f32) (V : FVec Ideal S1024x64 .f32) (r : Fin 256) (d : Fin 64) :
    outRows W V (ix2 r d) = ∑ s : Fin 1024, W (ix2 r s) * V (ix2 s d) :=
  Cert.PlainMatmul.zero_acc_apply _ (some .fp32) W V r d

/-! ## The blocks at an entry -/

/-- The weights of the stages at (r, s) are the specification's weight of key row s for the query row r. -/
theorem wts_apply (Q : FVec Ideal S256x64 .f32) (K : FVec Ideal S1024x64 .f32) (M : Vec Ideal S256x1024 .f32)
    (r : Fin 256) (s : Fin 1024) :
    wts (expo (logits Q K M)) (ix2 r s)
      = Cert.Attn.rowWeight (fun d => Q (ix2 r d)) (fun s' d => K (ix2 s' d)) (fun s' => M (ix2 r s')) s := by
  have hL : ∀ s', logits Q K M (ix2 r s')
      = Cert.Attn.rowLogit (fun d => Q (ix2 r d)) (fun s' d => K (ix2 s' d)) (fun s' => M (ix2 r s')) s' :=
    fun s' => logits_apply Q K M r s'
  have hM : ∀ s', maxCols (logits Q K M) (ix2 r s')
      = Cert.Attn.rowMax (fun d => Q (ix2 r d)) (fun s' d => K (ix2 s' d)) (fun s' => M (ix2 r s')) := fun s' => by
    rw [maxCols_apply]
    unfold Cert.Attn.rowMax
    exact congrArg (fun f => Finset.fold max Cert.Attn.negInf f (Finset.univ : Finset (Fin 1024))) (funext hL)
  have hE : ∀ s', expo (logits Q K M) (ix2 r s')
      = Cert.Attn.rowExp (fun d => Q (ix2 r d)) (fun s' d => K (ix2 s' d)) (fun s' => M (ix2 r s')) s' := fun s' => by
    show Ideal.exp (logits Q K M (ix2 r s') - maxCols (logits Q K M) (ix2 r s')) = _
    rw [hL, hM]
    rfl
  have hS : sumCols (expo (logits Q K M)) (ix2 r s)
      = Cert.Attn.rowSum (fun d => Q (ix2 r d)) (fun s' d => K (ix2 s' d)) (fun s' => M (ix2 r s')) := by
    rw [sumCols_apply]
    unfold Cert.Attn.rowSum
    exact Finset.sum_congr rfl fun s' _ => hE s'
  show Ideal.div (expo (logits Q K M) (ix2 r s)) (sumCols (expo (logits Q K M)) (ix2 r s)) = _
  rw [hE, hS]
  rfl

/-- The weights block at (r, s), whatever its two unit coordinates: the weight of key row s for query row r of the
    blocks the point read. -/
theorem weights_payload_apply (x0 : Vec Ideal S1x1x256x64 .f32) (x1 : Vec Ideal S1x1x1024x64 .f32)
    (x7 : Vec Ideal S256x1024 .f32) (u v : Fin 1) (r : Fin 256) (s : Fin 1024) :
    k0_pay3 (F := Ideal) x0 x1 x7 (ix4 u v r s)
      = Cert.Attn.rowWeight (fun d => x0 (ix4 (0 : Fin 1) (0 : Fin 1) r d))
          (fun s' d => x1 (ix4 (0 : Fin 1) (0 : Fin 1) s' d)) (fun s' => x7 (ix2 r s')) s := by
  refine (Cert.TwoUnitAxes.add_apply (k0_pay2 (F := Ideal) x0 x1 x7) _ u v r s).trans ?_
  rw [pay2_eq, wts_apply]
  have hQ : (fun d => queryRows x0 (ix2 r d)) = fun d => x0 (ix4 (0 : Fin 1) (0 : Fin 1) r d) :=
    funext fun d => queryRows_apply x0 r d
  have hK : (fun s' d => kvRows x1 (ix2 s' d)) = fun s' d => x1 (ix4 (0 : Fin 1) (0 : Fin 1) s' d) :=
    funext fun s' => funext fun d => kvRows_apply x1 s' d
  rw [hQ, hK]

/-- The output block at (r, d), whatever its two unit coordinates: the output entry d of query row r of the blocks the
    point read. -/
theorem output_payload_apply (x0 : Vec Ideal S1x1x256x64 .f32) (x1 : Vec Ideal S1x1x1024x64 .f32)
    (x7 : Vec Ideal S256x1024 .f32) (x2 : Vec Ideal S1x1x1024x64 .f32) (u v : Fin 1) (r : Fin 256) (d : Fin 64) :
    k0_pay1 (F := Ideal) (k0_pay4 (F := Ideal) x0 x1 x7 x2) (ix4 u v r d)
      = Cert.Attn.rowOut (fun d => x0 (ix4 (0 : Fin 1) (0 : Fin 1) r d))
          (fun s' d => x1 (ix4 (0 : Fin 1) (0 : Fin 1) s' d)) (fun s' d => x2 (ix4 (0 : Fin 1) (0 : Fin 1) s' d))
          (fun s' => x7 (ix2 r s')) d := by
  refine (Cert.TwoUnitAxes.add_apply (k0_pay4 (F := Ideal) x0 x1 x7 x2) _ u v r d).trans ?_
  rw [pay4_eq, outRows_apply]
  unfold Cert.Attn.rowOut
  refine Finset.sum_congr rfl fun s _ => ?_
  have hW := weights_payload_apply x0 x1 x7 (0 : Fin 1) (0 : Fin 1) r s
  rw [show k0_pay3 (F := Ideal) x0 x1 x7 (ix4 (0 : Fin 1) (0 : Fin 1) r s) = k0_pay2 (F := Ideal) x0 x1 x7 (ix2 r s) from
    Cert.TwoUnitAxes.add_apply (k0_pay2 (F := Ideal) x0 x1 x7) _ 0 0 r s] at hW
  rw [hW, kvRows_apply]

end Cert.KernelIdeal.Row

end
-- ==== Proof.KernelArray.lean ====
/-
  From blocks to arrays: what the two result arrays hold after every grid point has written its blocks back.

  The grid has 8 · 16 · 4 points (b, h, j).  Point (b, h, j) reads the query rows 256·j … 256·j + 255 of head (b, h),
  all key and value rows of that head, and the whole bias, and writes back rows 256·j … 256·j + 255 of head (b, h)
  of the output and of the weights.  Every row of the body's result depends on its own query row and bias row only, so
  what a point writes back is the block of ONE function of the whole arrays: the specification's attention.  The
  blocks of the 512 points tile both result arrays (row s of head (b, h) is written by point (b, h, s / 256)), so each
  array ends equal to that function.
-/
import proofs.«121620_j32925219291316_2_alg».proof.Proof.Gen.KernelIdeal.Value
import proofs.«121620_j32925219291316_2_alg».proof.Proof.KernelPieces
import proofs.«121620_j32925219291316_2_alg».proof.Proof.KernelRow
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Arr

open Cert.KernelIdeal Cert.KernelIdeal.Gen Idealize.ShloMosaic.ValueIdx

/-! ## The index maps in closed form -/

theorem transform0_eq (i : grid0.Coords) : cc0_transform_0 i = ![(i 0).val, (i 1).val, (i 2).val, 0] := by
  have r_i0 : (i 0).val < 8 := (i 0).isLt
  have h_arg0 : Affine.IsInt (BitVec.ofNat 32 (i 0).val) (((i 0).val : Int)) := Affine.ofNat _ (by omega)
  have r_i1 : (i 1).val < 16 := (i 1).isLt
  have h_arg1 : Affine.IsInt (BitVec.ofNat 32 (i 1).val) (((i 1).val : Int)) := Affine.ofNat _ (by omega)
  have r_i2 : (i 2).val < 4 := (i 2).isLt
  have h_arg2 : Affine.IsInt (BitVec.ofNat 32 (i 2).val) (((i 2).val : Int)) := Affine.ofNat _ (by omega)
  have h_zero : Affine.IsInt 0#32 (0) := Affine.ofNat _ (by omega)
  exact Affine.vec_cons h_arg0 (by omega) <| Affine.vec_cons h_arg1 (by omega) <| Affine.vec_cons h_arg2 (by omega) <| Affine.vec_cons h_zero (by omega) <| Affine.vec_nil

theorem transform1_eq (i : grid0.Coords) : cc0_transform_1 i = ![(i 0).val, (i 1).val, 0, 0] := by
  have r_i0 : (i 0).val < 8 := (i 0).isLt
  have h_arg0 : Affine.IsInt (BitVec.ofNat 32 (i 0).val) (((i 0).val : Int)) := Affine.ofNat _ (by omega)
  have r_i1 : (i 1).val < 16 := (i 1).isLt
  have h_arg1 : Affine.IsInt (BitVec.ofNat 32 (i 1).val) (((i 1).val : Int)) := Affine.ofNat _ (by omega)
  have r_i2 : (i 2).val < 4 := (i 2).isLt
  have h_arg2 : Affine.IsInt (BitVec.ofNat 32 (i 2).val) (((i 2).val : Int)) := Affine.ofNat _ (by omega)
  have h_zero : Affine.IsInt 0#32 (0) := Affine.ofNat _ (by omega)
  exact Affine.vec_cons h_arg0 (by omega) <| Affine.vec_cons h_arg1 (by omega) <| Affine.vec_cons h_zero (by omega) <| Affine.vec_cons h_zero (by omega) <| Affine.vec_nil

theorem transform2_eq (i : grid0.Coords) : cc0_transform_2 i = ![(i 0).val, (i 1).val, 0, 0] := by
  have r_i0 : (i 0).val < 8 := (i 0).isLt
  have h_arg0 : Affine.IsInt (BitVec.ofNat 32 (i 0).val) (((i 0).val : Int)) := Affine.ofNat _ (by omega)
  have r_i1 : (i 1).val < 16 := (i 1).isLt
  have h_arg1 : Affine.IsInt (BitVec.ofNat 32 (i 1).val) (((i 1).val : Int)) := Affine.ofNat _ (by omega)
  have r_i2 : (i 2).val < 4 := (i 2).isLt
  have h_arg2 : Affine.IsInt (BitVec.ofNat 32 (i 2).val) (((i 2).val : Int)) := Affine.ofNat _ (by omega)
  have h_zero : Affine.IsInt 0#32 (0) := Affine.ofNat _ (by omega)
  exact Affine.vec_cons h_arg0 (by omega) <| Affine.vec_cons h_arg1 (by omega) <| Affine.vec_cons h_zero (by omega) <| Affine.vec_cons h_zero (by omega) <| Affine.vec_nil

theorem transform3_eq (i : grid0.Coords) : cc0_transform_3 i = ![0, 0] := by
  have h_zero : Affine.IsInt 0#32 (0) := Affine.ofNat _ (by omega)
  exact Affine.vec_cons h_zero (by omega) <| Affine.vec_cons h_zero (by omega) <| Affine.vec_nil

theorem transform4_eq (i : grid0.Coords) : cc0_transform_4 i = ![(i 0).val, (i 1).val, (i 2).val, 0] := by
  have r_i0 : (i 0).val < 8 := (i 0).isLt
  have h_arg0 : Affine.IsInt (BitVec.ofNat 32 (i 0).val) (((i 0).val : Int)) := Affine.ofNat _ (by omega)
  have r_i1 : (i 1).val < 16 := (i 1).isLt
  have h_arg1 : Affine.IsInt (BitVec.ofNat 32 (i 1).val) (((i 1).val : Int)) := Affine.ofNat _ (by omega)
  have r_i2 : (i 2).val < 4 := (i 2).isLt
  have h_arg2 : Affine.IsInt (BitVec.ofNat 32 (i 2).val) (((i 2).val : Int)) := Affine.ofNat _ (by omega)
  have h_zero : Affine.IsInt 0#32 (0) := Affine.ofNat _ (by omega)
  exact Affine.vec_cons h_arg0 (by omega) <| Affine.vec_cons h_arg1 (by omega) <| Affine.vec_cons h_arg2 (by omega) <| Affine.vec_cons h_zero (by omega) <| Affine.vec_nil

theorem transform5_eq (i : grid0.Coords) : cc0_transform_5 i = ![(i 0).val, (i 1).val, (i 2).val, 0] := by
  have r_i0 : (i 0).val < 8 := (i 0).isLt
  have h_arg0 : Affine.IsInt (BitVec.ofNat 32 (i 0).val) (((i 0).val : Int)) := Affine.ofNat _ (by omega)
  have r_i1 : (i 1).val < 16 := (i 1).isLt
  have h_arg1 : Affine.IsInt (BitVec.ofNat 32 (i 1).val) (((i 1).val : Int)) := Affine.ofNat _ (by omega)
  have r_i2 : (i 2).val < 4 := (i 2).isLt
  have h_arg2 : Affine.IsInt (BitVec.ofNat 32 (i 2).val) (((i 2).val : Int)) := Affine.ofNat _ (by omega)
  have h_zero : Affine.IsInt 0#32 (0) := Affine.ofNat _ (by omega)
  exact Affine.vec_cons h_arg0 (by omega) <| Affine.vec_cons h_arg1 (by omega) <| Affine.vec_cons h_arg2 (by omega) <| Affine.vec_cons h_zero (by omega) <| Affine.vec_nil

theorem index0_0 (t : Fin cfg0.N) : win0_0.index t (0 : Fin 4) = (grid0.coords t 0).val :=
  congrFun (transform0_eq (grid0.coords t)) 0
theorem index0_1 (t : Fin cfg0.N) : win0_0.index t (1 : Fin 4) = (grid0.coords t 1).val :=
  congrFun (transform0_eq (grid0.coords t)) 1
theorem index0_2 (t : Fin cfg0.N) : win0_0.index t (2 : Fin 4) = (grid0.coords t 2).val :=
  congrFun (transform0_eq (grid0.coords t)) 2
theorem index0_3 (t : Fin cfg0.N) : win0_0.index t (3 : Fin 4) = 0 :=
  congrFun (transform0_eq (grid0.coords t)) 3
theorem index1_0 (t : Fin cfg0.N) : win0_1.index t (0 : Fin 4) = (grid0.coords t 0).val :=
  congrFun (transform1_eq (grid0.coords t)) 0
theorem index1_1 (t : Fin cfg0.N) : win0_1.index t (1 : Fin 4) = (grid0.coords t 1).val :=
  congrFun (transform1_eq (grid0.coords t)) 1
theorem index1_2 (t : Fin cfg0.N) : win0_1.index t (2 : Fin 4) = 0 :=
  congrFun (transform1_eq (grid0.coords t)) 2
theorem index1_3 (t : Fin cfg0.N) : win0_1.index t (3 : Fin 4) = 0 :=
  congrFun (transform1_eq (grid0.coords t)) 3
theorem index2_0 (t : Fin cfg0.N) : win0_2.index t (0 : Fin 4) = (grid0.coords t 0).val :=
  congrFun (transform2_eq (grid0.coords t)) 0
theorem index2_1 (t : Fin cfg0.N) : win0_2.index t (1 : Fin 4) = (grid0.coords t 1).val :=
  congrFun (transform2_eq (grid0.coords t)) 1
theorem index2_2 (t : Fin cfg0.N) : win0_2.index t (2 : Fin 4) = 0 :=
  congrFun (transform2_eq (grid0.coords t)) 2
theorem index2_3 (t : Fin cfg0.N) : win0_2.index t (3 : Fin 4) = 0 :=
  congrFun (transform2_eq (grid0.coords t)) 3
theorem index4_0 (t : Fin cfg0.N) : win0_4.index t (0 : Fin 4) = (grid0.coords t 0).val :=
  congrFun (transform4_eq (grid0.coords t)) 0
theorem index4_1 (t : Fin cfg0.N) : win0_4.index t (1 : Fin 4) = (grid0.coords t 1).val :=
  congrFun (transform4_eq (grid0.coords t)) 1
theorem index4_2 (t : Fin cfg0.N) : win0_4.index t (2 : Fin 4) = (grid0.coords t 2).val :=
  congrFun (transform4_eq (grid0.coords t)) 2
theorem index4_3 (t : Fin cfg0.N) : win0_4.index t (3 : Fin 4) = 0 :=
  congrFun (transform4_eq (grid0.coords t)) 3
theorem index5_0 (t : Fin cfg0.N) : win0_5.index t (0 : Fin 4) = (grid0.coords t 0).val :=
  congrFun (transform5_eq (grid0.coords t)) 0
theorem index5_1 (t : Fin cfg0.N) : win0_5.index t (1 : Fin 4) = (grid0.coords t 1).val :=
  congrFun (transform5_eq (grid0.coords t)) 1
theorem index5_2 (t : Fin cfg0.N) : win0_5.index t (2 : Fin 4) = (grid0.coords t 2).val :=
  congrFun (transform5_eq (grid0.coords t)) 2
theorem index5_3 (t : Fin cfg0.N) : win0_5.index t (3 : Fin 4) = 0 :=
  congrFun (transform5_eq (grid0.coords t)) 3
theorem index3_0 (t : Fin cfg0.N) : win0_3.index t (0 : Fin 2) = 0 := congrFun (transform3_eq (grid0.coords t)) 0
theorem index3_1 (t : Fin cfg0.N) : win0_3.index t (1 : Fin 2) = 0 := congrFun (transform3_eq (grid0.coords t)) 1

theorem stride0 : grid0.stride 0 = 64 := by decide
theorem stride1 : grid0.stride 1 = 4 := by decide
theorem stride2 : grid0.stride 2 = 1 := by decide

/-- The point (b, h, j), in the order the grid runs. -/
def pointOf (b : Fin 8) (h : Fin 16) (j : Fin 4) : Fin cfg0.N :=
  ⟨(b.val * 16 + h.val) * 4 + j.val, by
    show _ < grid0.N
    rw [N_0]
    have := b.isLt; have := h.isLt; have := j.isLt; omega⟩

theorem coords_pointOf (b : Fin 8) (h : Fin 16) (j : Fin 4) :
    (grid0.coords (pointOf b h j) 0).val = b.val ∧ (grid0.coords (pointOf b h j) 1).val = h.val
      ∧ (grid0.coords (pointOf b h j) 2).val = j.val := by
  have hb := b.isLt; have hh := h.isLt; have hj := j.isLt
  refine ⟨?_, ?_, ?_⟩
  · show ((b.val * 16 + h.val) * 4 + j.val) / grid0.stride 0 % 8 = b.val
    rw [stride0]; omega
  · show ((b.val * 16 + h.val) * 4 + j.val) / grid0.stride 1 % 16 = h.val
    rw [stride1]; omega
  · show ((b.val * 16 + h.val) * 4 + j.val) / grid0.stride 2 % 4 = j.val
    rw [stride2]; omega

/-! ## One point, over blocks and arrays given as values -/

/-- The weights block of a point whose query block is rows 256·j … of head (b, h) of q, whose key block is head
    (b, h) of k, and whose bias rows are rows 256·j … of the bias: at the block index y it is the specification's
    weight at the array index i with i = (b, h, 256·j + y₂, y₃). -/
theorem weights_point (q k : Cert.Attn.Sqkv.Idx → EReal) (bias : Cert.Attn.Sb.Idx → EReal)
    (x0 : Vec Ideal S1x1x256x64 .f32) (x1 : Vec Ideal S1x1x1024x64 .f32) (x7 : Vec Ideal S256x1024 .f32)
    (b : Fin 8) (h : Fin 16) (j : Fin 4)
    (h0 : ∀ (r : Fin 256) (d : Fin 64) (s : Fin 1024), s.val = 256 * j.val + r.val →
      x0 (ix4 (0 : Fin 1) (0 : Fin 1) r d) = q (ix4 b h s d))
    (h1 : ∀ (s : Fin 1024) (d : Fin 64), x1 (ix4 (0 : Fin 1) (0 : Fin 1) s d) = k (ix4 b h s d))
    (h7 : ∀ (r : Fin 256) (s' s : Fin 1024), s.val = 256 * j.val + r.val → x7 (ix2 r s') = bias (ix2 s s'))
    (y : S1x1x256x1024.Idx) (i : S8x16x1024x1024.Idx)
    (e0 : (i 0).val = b.val) (e1 : (i 1).val = h.val) (e2 : (i 2).val = 256 * j.val + (y 2).val)
    (e3 : (i 3).val = (y 3).val) :
    k0_pay3 (F := Ideal) x0 x1 x7 y = Cert.Attn.weights q k bias i := by
  obtain ⟨u, v, r, s, rfl⟩ : ∃ (u v : Fin 1) (r : Fin 256) (s : Fin 1024), y = ix4 u v r s :=
    ⟨y 0, y 1, y 2, y 3, eq_ix4 y⟩
  rw [Row.weights_payload_apply]
  unfold Cert.Attn.weights
  have i0 : i 0 = b := Fin.ext e0
  have i1 : i 1 = h := Fin.ext e1
  have i3 : i 3 = s := Fin.ext e3
  rw [i0, i1, i3]
  have hQ : (fun d => x0 (ix4 (0 : Fin 1) (0 : Fin 1) r d)) = fun d => q (ix4 b h (i 2) d) :=
    funext fun d => h0 r d (i 2) e2
  have hK : (fun s' d => x1 (ix4 (0 : Fin 1) (0 : Fin 1) s' d)) = fun s' d => k (ix4 b h s' d) :=
    funext fun s' => funext fun d => h1 s' d
  have hB : (fun s' => x7 (ix2 r s')) = fun s' => bias (ix2 (i 2) s') := funext fun s' => h7 r s' (i 2) e2
  rw [hQ, hK, hB]

/-- The output block of such a point, whose value block is head (b, h) of v: at the block index y it is the
    specification's output at i = (b, h, 256·j + y₂, y₃). -/
theorem output_point (q k v : Cert.Attn.Sqkv.Idx → EReal) (bias : Cert.Attn.Sb.Idx → EReal)
    (x0 : Vec Ideal S1x1x256x64 .f32) (x1 x2 : Vec Ideal S1x1x1024x64 .f32) (x7 : Vec Ideal S256x1024 .f32)
    (b : Fin 8) (h : Fin 16) (j : Fin 4)
    (h0 : ∀ (r : Fin 256) (d : Fin 64) (s : Fin 1024), s.val = 256 * j.val + r.val →
      x0 (ix4 (0 : Fin 1) (0 : Fin 1) r d) = q (ix4 b h s d))
    (h1 : ∀ (s : Fin 1024) (d : Fin 64), x1 (ix4 (0 : Fin 1) (0 : Fin 1) s d) = k (ix4 b h s d))
    (h2 : ∀ (s : Fin 1024) (d : Fin 64), x2 (ix4 (0 : Fin 1) (0 : Fin 1) s d) = v (ix4 b h s d))
    (h7 : ∀ (r : Fin 256) (s' s : Fin 1024), s.val = 256 * j.val + r.val → x7 (ix2 r s') = bias (ix2 s s'))
    (y : S1x1x256x64.Idx) (i : S8x16x1024x64.Idx)
    (e0 : (i 0).val = b.val) (e1 : (i 1).val = h.val) (e2 : (i 2).val = 256 * j.val + (y 2).val)
    (e3 : (i 3).val = (y 3).val) :
    k0_pay1 (F := Ideal) (k0_pay4 (F := Ideal) x0 x1 x7 x2) y = Cert.Attn.output q k v bias i := by
  obtain ⟨u, w, r, d, rfl⟩ : ∃ (u w : Fin 1) (r : Fin 256) (d : Fin 64), y = ix4 u w r d :=
    ⟨y 0, y 1, y 2, y 3, eq_ix4 y⟩
  rw [Row.output_payload_apply]
  unfold Cert.Attn.output
  have i0 : i 0 = b := Fin.ext e0
  have i1 : i 1 = h := Fin.ext e1
  have i3 : i 3 = d := Fin.ext e3
  rw [i0, i1, i3]
  have hQ : (fun d => x0 (ix4 (0 : Fin 1) (0 : Fin 1) r d)) = fun d => q (ix4 b h (i 2) d) :=
    funext fun d => h0 r d (i 2) e2
  have hK : (fun s' d => x1 (ix4 (0 : Fin 1) (0 : Fin 1) s' d)) = fun s' d => k (ix4 b h s' d) :=
    funext fun s' => funext fun d => h1 s' d
  have hV : (fun s' d => x2 (ix4 (0 : Fin 1) (0 : Fin 1) s' d)) = fun s' d => v (ix4 b h s' d) :=
    funext fun s' => funext fun d => h2 s' d
  have hB : (fun s' => x7 (ix2 r s')) = fun s' => bias (ix2 (i 2) s') := funext fun s' => h7 r s' (i 2) e2
  rw [hQ, hK, hV, hB]

/-! ## The blocks a point reads are blocks of the arrays the region finds -/

variable (m : (ℓ : Loc nD τ sig) → Buf (Elt Ideal) ℓ) (ρ : Dev nD → PrngReg)

/-- The query block of point t at (0, 0, r, d) is q at (b, h, 256·j + r, d), (b, h, j) the point's coordinates. -/
theorem query_block (c : Dev nD) (t : Fin cfg0.N) (r : Fin 256) (d : Fin 64) (s : Fin 1024)
    (hs : s.val = 256 * (grid0.coords t 2).val + r.val) :
    iblk m c 0 t (ix4 (0 : Fin 1) (0 : Fin 1) r d) = V m c main_arg0 (ix4 (grid0.coords t 0) (grid0.coords t 1) s d) := by
  show V m c main_arg0 (((cfg0.win 0).blk t).view.emb (ix4 (0 : Fin 1) (0 : Fin 1) r d)) = _
  refine congrArg (V m c main_arg0) (funext fun a => Fin.ext ?_)
  match a with
  | ⟨0, _⟩ => show win0_0.index t (0 : Fin 4) * 1 + 1 * 0 = (grid0.coords t 0).val; rw [index0_0]; omega
  | ⟨1, _⟩ => show win0_0.index t (1 : Fin 4) * 1 + 1 * 0 = (grid0.coords t 1).val; rw [index0_1]; omega
  | ⟨2, _⟩ => show win0_0.index t (2 : Fin 4) * 256 + 1 * r.val = s.val; rw [index0_2]; omega
  | ⟨3, _⟩ => show win0_0.index t (3 : Fin 4) * 64 + 1 * d.val = d.val; rw [index0_3]; omega

/-- The key block of point t at (0, 0, s, d) is k at (b, h, s, d). -/
theorem key_block (c : Dev nD) (t : Fin cfg0.N) (s : Fin 1024) (d : Fin 64) :
    iblk m c 1 t (ix4 (0 : Fin 1) (0 : Fin 1) s d) = V m c main_arg1 (ix4 (grid0.coords t 0) (grid0.coords t 1) s d) := by
  show V m c main_arg1 (((cfg0.win 1).blk t).view.emb (ix4 (0 : Fin 1) (0 : Fin 1) s d)) = _
  refine congrArg (V m c main_arg1) (funext fun a => Fin.ext ?_)
  match a with
  | ⟨0, _⟩ => show win0_1.index t (0 : Fin 4) * 1 + 1 * 0 = (grid0.coords t 0).val; rw [index1_0]; omega
  | ⟨1, _⟩ => show win0_1.index t (1 : Fin 4) * 1 + 1 * 0 = (grid0.coords t 1).val; rw [index1_1]; omega
  | ⟨2, _⟩ => show win0_1.index t (2 : Fin 4) * 1024 + 1 * s.val = s.val; rw [index1_2]; omega
  | ⟨3, _⟩ => show win0_1.index t (3 : Fin 4) * 64 + 1 * d.val = d.val; rw [index1_3]; omega

/-- The value block of point t at (0, 0, s, d) is v at (b, h, s, d). -/
theorem value_block (c : Dev nD) (t : Fin cfg0.N) (s : Fin 1024) (d : Fin 64) :
    iblk m c 2 t (ix4 (0 : Fin 1) (0 : Fin 1) s d) = V m c main_arg2 (ix4 (grid0.coords t 0) (grid0.coords t 1) s d) := by
  show V m c main_arg2 (((cfg0.win 2).blk t).view.emb (ix4 (0 : Fin 1) (0 : Fin 1) s d)) = _
  refine congrArg (V m c main_arg2) (funext fun a => Fin.ext ?_)
  match a with
  | ⟨0, _⟩ => show win0_2.index t (0 : Fin 4) * 1 + 1 * 0 = (grid0.coords t 0).val; rw [index2_0]; omega
  | ⟨1, _⟩ => show win0_2.index t (1 : Fin 4) * 1 + 1 * 0 = (grid0.coords t 1).val; rw [index2_1]; omega
  | ⟨2, _⟩ => show win0_2.index t (2 : Fin 4) * 1024 + 1 * s.val = s.val; rw [index2_2]; omega
  | ⟨3, _⟩ => show win0_2.index t (3 : Fin 4) * 64 + 1 * d.val = d.val; rw [index2_3]; omega

/-- The bias rows of point t at (r, s') are the bias at (256·j + r, s'): the bias block is the whole bias, and the
    body reads its rows from the row offset 256·j. -/
theorem bias_rows (c : Dev nD) (t : Fin cfg0.N) (r : Fin 256) (s' s : Fin 1024)
    (hs : s.val = 256 * (grid0.coords t 2).val + r.val) :
    Pieces.biasRows (grid0.coords t) (iblk m c 3 t) (ix2 r s') = V m c main_v2 (ix2 s s') := by
  show V m c main_v2 (((cfg0.win 3).blk t).view.emb
    ((Rect.unit (s := S1024x1024) (k0_off1 (grid0.coords t)) S256x1024.size (k0_off1_inb (grid0.coords t))).idx (ix2 r s'))) = _
  refine congrArg (V m c main_v2) (funext fun a => Fin.ext ?_)
  have ho := k0_off1_eq (grid0.coords t)
  match a with
  | ⟨0, _⟩ =>
    show win0_3.index t (0 : Fin 2) * 1024 + 1 * (k0_off1 (grid0.coords t) 0 + 1 * r.val) = s.val
    rw [index3_0, ho]
    show 0 * 1024 + 1 * (256 * (grid0.coords t 2).val + 1 * r.val) = s.val
    omega
  | ⟨1, _⟩ =>
    show win0_3.index t (1 : Fin 2) * 1024 + 1 * (k0_off1 (grid0.coords t) 1 + 1 * s'.val) = s'.val
    rw [index3_1, ho]
    show 0 * 1024 + 1 * (0 + 1 * s'.val) = s'.val
    omega

/-! ## What a point writes back -/

/-- What point t writes back to the weights array is block t of the specification's weights of the arrays the region
    finds. -/
theorem flushed_weights (c : Dev nD) (t : Fin cfg0.N) :
    (dats m 0 c).flushed 5 t = ((cfg0.win 5).blk t).view.read (Elt Ideal)
      (Cert.Attn.weights (V m c main_arg0) (V m c main_arg1) (V m c main_v2)) := by
  rw [Value.flushed5_A, Pieces.weights_block]
  funext y
  show k0_pay3 (F := Ideal) (iblk m c 0 t) (iblk m c 1 t) (Pieces.biasRows (grid0.coords t) (iblk m c 3 t)) y
    = Cert.Attn.weights (V m c main_arg0) (V m c main_arg1) (V m c main_v2) (((cfg0.win 5).blk t).view.emb y)
  refine weights_point (V m c main_arg0) (V m c main_arg1) (V m c main_v2) (iblk m c 0 t) (iblk m c 1 t)
    (Pieces.biasRows (grid0.coords t) (iblk m c 3 t)) (grid0.coords t 0) (grid0.coords t 1) (grid0.coords t 2)
    (fun r d s hs => query_block m c t r d s hs) (fun s d => key_block m c t s d)
    (fun r s' s hs => bias_rows m c t r s' s hs) y (((cfg0.win 5).blk t).view.emb y) ?_ ?_ ?_ ?_
  · show win0_5.index t (0 : Fin 4) * 1 + 1 * (y 0).val = (grid0.coords t 0).val
    have hy : (y 0).val < 1 := (y 0).isLt
    rw [index5_0]; omega
  · show win0_5.index t (1 : Fin 4) * 1 + 1 * (y 1).val = (grid0.coords t 1).val
    have hy : (y 1).val < 1 := (y 1).isLt
    rw [index5_1]; omega
  · show win0_5.index t (2 : Fin 4) * 256 + 1 * (y 2).val = 256 * (grid0.coords t 2).val + (y 2).val
    rw [index5_2]; omega
  · show win0_5.index t (3 : Fin 4) * 1024 + 1 * (y 3).val = (y 3).val
    rw [index5_3]; omega

/-- What point t writes back to the output array is block t of the specification's output. -/
theorem flushed_output (c : Dev nD) (t : Fin cfg0.N) :
    (dats m 0 c).flushed 4 t = ((cfg0.win 4).blk t).view.read (Elt Ideal)
      (Cert.Attn.output (V m c main_arg0) (V m c main_arg1) (V m c main_arg2) (V m c main_v2)) := by
  rw [Value.flushed4_A, Pieces.output_block]
  funext y
  show k0_pay1 (F := Ideal) (k0_pay4 (F := Ideal) (iblk m c 0 t) (iblk m c 1 t)
      (Pieces.biasRows (grid0.coords t) (iblk m c 3 t)) (iblk m c 2 t)) y
    = Cert.Attn.output (V m c main_arg0) (V m c main_arg1) (V m c main_arg2) (V m c main_v2)
        (((cfg0.win 4).blk t).view.emb y)
  refine output_point (V m c main_arg0) (V m c main_arg1) (V m c main_arg2) (V m c main_v2) (iblk m c 0 t)
    (iblk m c 1 t) (iblk m c 2 t) (Pieces.biasRows (grid0.coords t) (iblk m c 3 t)) (grid0.coords t 0)
    (grid0.coords t 1) (grid0.coords t 2)
    (fun r d s hs => query_block m c t r d s hs) (fun s d => key_block m c t s d) (fun s d => value_block m c t s d)
    (fun r s' s hs => bias_rows m c t r s' s hs) y (((cfg0.win 4).blk t).view.emb y) ?_ ?_ ?_ ?_
  · show win0_4.index t (0 : Fin 4) * 1 + 1 * (y 0).val = (grid0.coords t 0).val
    have hy : (y 0).val < 1 := (y 0).isLt
    rw [index4_0]; omega
  · show win0_4.index t (1 : Fin 4) * 1 + 1 * (y 1).val = (grid0.coords t 1).val
    have hy : (y 1).val < 1 := (y 1).isLt
    rw [index4_1]; omega
  · show win0_4.index t (2 : Fin 4) * 256 + 1 * (y 2).val = 256 * (grid0.coords t 2).val + (y 2).val
    rw [index4_2]; omega
  · show win0_4.index t (3 : Fin 4) * 64 + 1 * (y 3).val = (y 3).val
    rw [index4_3]; omega

/-! ## The blocks tile the arrays -/

theorem mem_weights_block (t : Fin cfg0.N) (i : S8x16x1024x1024.Idx) :
    i ∈ ((cfg0.win 5).blk t).view.set ↔ ∀ a : Fin 4, win0_5.index t a * S1x1x256x1024.size a ≤ (i a).val
      ∧ (i a).val < win0_5.index t a * S1x1x256x1024.size a + S1x1x256x1024.size a := by
  show i ∈ ((View.whole main_v3_1).slice (win0_5.rect t)).set ↔ _
  rw [View.set_slice_whole, Rect.mem_set_unit]
  exact Iff.rfl

theorem mem_output_block (t : Fin cfg0.N) (i : S8x16x1024x64.Idx) :
    i ∈ ((cfg0.win 4).blk t).view.set ↔ ∀ a : Fin 4, win0_4.index t a * S1x1x256x64.size a ≤ (i a).val
      ∧ (i a).val < win0_4.index t a * S1x1x256x64.size a + S1x1x256x64.size a := by
  show i ∈ ((View.whole main_v3_0).slice (win0_4.rect t)).set ↔ _
  rw [View.set_slice_whole, Rect.mem_set_unit]
  exact Iff.rfl

/-- Every entry of the weights array is in the block of the point (b, h, s / 256). -/
theorem cover_weights (i : S8x16x1024x1024.Idx) :
    ∃ t : Fin cfg0.N, (cfg0.win 5).flush t = true ∧ i ∈ ((cfg0.win 5).blk t).view.set := by
  have h2 : (i 2).val < 1024 := (i 2).isLt
  have h3 : (i 3).val < 1024 := (i 3).isLt
  obtain ⟨c0, c1, c2⟩ := coords_pointOf (i 0) (i 1) ⟨(i 2).val / 256, by omega⟩
  refine ⟨pointOf (i 0) (i 1) ⟨(i 2).val / 256, by omega⟩, flush0_5 _, ?_⟩
  rw [mem_weights_block]
  intro a
  match a with
  | ⟨0, _⟩ =>
    show win0_5.index _ (0 : Fin 4) * 1 ≤ (i 0).val ∧ (i 0).val < win0_5.index _ (0 : Fin 4) * 1 + 1
    rw [index5_0, c0]; omega
  | ⟨1, _⟩ =>
    show win0_5.index _ (1 : Fin 4) * 1 ≤ (i 1).val ∧ (i 1).val < win0_5.index _ (1 : Fin 4) * 1 + 1
    rw [index5_1, c1]; omega
  | ⟨2, _⟩ =>
    show win0_5.index _ (2 : Fin 4) * 256 ≤ (i 2).val ∧ (i 2).val < win0_5.index _ (2 : Fin 4) * 256 + 256
    rw [index5_2, c2]
    show (i 2).val / 256 * 256 ≤ (i 2).val ∧ (i 2).val < (i 2).val / 256 * 256 + 256
    omega
  | ⟨3, _⟩ =>
    show win0_5.index _ (3 : Fin 4) * 1024 ≤ (i 3).val ∧ (i 3).val < win0_5.index _ (3 : Fin 4) * 1024 + 1024
    rw [index5_3]; omega

/-- Every entry of the output array is in the block of the point (b, h, s / 256). -/
theorem cover_output (i : S8x16x1024x64.Idx) :
    ∃ t : Fin cfg0.N, (cfg0.win 4).flush t = true ∧ i ∈ ((cfg0.win 4).blk t).view.set := by
  have h2 : (i 2).val < 1024 := (i 2).isLt
  have h3 : (i 3).val < 64 := (i 3).isLt
  obtain ⟨c0, c1, c2⟩ := coords_pointOf (i 0) (i 1) ⟨(i 2).val / 256, by omega⟩
  refine ⟨pointOf (i 0) (i 1) ⟨(i 2).val / 256, by omega⟩, flush0_4 _, ?_⟩
  rw [mem_output_block]
  intro a
  match a with
  | ⟨0, _⟩ =>
    show win0_4.index _ (0 : Fin 4) * 1 ≤ (i 0).val ∧ (i 0).val < win0_4.index _ (0 : Fin 4) * 1 + 1
    rw [index4_0, c0]; omega
  | ⟨1, _⟩ =>
    show win0_4.index _ (1 : Fin 4) * 1 ≤ (i 1).val ∧ (i 1).val < win0_4.index _ (1 : Fin 4) * 1 + 1
    rw [index4_1, c1]; omega
  | ⟨2, _⟩ =>
    show win0_4.index _ (2 : Fin 4) * 256 ≤ (i 2).val ∧ (i 2).val < win0_4.index _ (2 : Fin 4) * 256 + 256
    rw [index4_2, c2]
    show (i 2).val / 256 * 256 ≤ (i 2).val ∧ (i 2).val < (i 2).val / 256 * 256 + 256
    omega
  | ⟨3, _⟩ =>
    show win0_4.index _ (3 : Fin 4) * 64 ≤ (i 3).val ∧ (i 3).val < win0_4.index _ (3 : Fin 4) * 64 + 64
    rw [index4_3]; omega

/-! ## The arrays after the run -/

/-- The bias array: the mask with a zero first row and first column put in front, times -1e9, as the host computes
    it before the region. -/
def biasOf (x3 : S1023x1023.Idx → EReal) : S1024x1024.Idx → EReal :=
  mulf (F := Ideal) (pad S1024x1024 ![1, 1] ![0, 0] ![0, 0] x3 (sitofp (F := Ideal) .f32 (constantI S_ 32 0#32))
      pads_S1023x1023_S1024x1024_100_100 h_S_)
    (broadcastInDim S1024x1024 ![] bcast_S_S1024x1024 (constant (F := Ideal) S_ .f32 0xCE6E6B28#32))

/-- The region finds the bias array the host operations before it computed. -/
theorem V_bias (c : Dev nD) :
    (V m c main_v2 : S1024x1024.Idx → EReal) = biasOf (m ((c : Thread nD τ).loc main_arg3)) := by
  dsimp only [Gen.V]
  simp only [Gen.hostOps0, Gen.hostOps0_1, Gen.hostOps0_2, List.flatten_cons, List.flatten_nil, List.append_nil,
    List.cons_append, List.nil_append]
  after_results
  rfl

/-- The weights array after the run. -/
theorem final_weights (c : Dev nD) :
    (dats m 0 c).arrAt 5 cfg0.N = Cert.Attn.weights (m ((c : Thread nD τ).loc main_arg0))
      (m ((c : Thread nD τ).loc main_arg1)) (biasOf (m ((c : Thread nD τ).loc main_arg3))) := by
  rw [← V_main_arg0 m c, ← V_main_arg1 m c, ← V_bias m c]
  exact (dats m 0 c).arrAt_eq_of_cover 5 _ (fun t _ => flushed_weights m c t) cover_weights

/-- The output array after the run. -/
theorem final_output (c : Dev nD) :
    (dats m 0 c).arrAt 4 cfg0.N = Cert.Attn.output (m ((c : Thread nD τ).loc main_arg0))
      (m ((c : Thread nD τ).loc main_arg1)) (m ((c : Thread nD τ).loc main_arg2))
      (biasOf (m ((c : Thread nD τ).loc main_arg3))) := by
  rw [← V_main_arg0 m c, ← V_main_arg1 m c, ← V_main_arg2 m c, ← V_bias m c]
  exact (dats m 0 c).arrAt_eq_of_cover 4 _ (fun t _ => flushed_output m c t) cover_output

/-- The kernel's run, read: both result arrays at the specification's functions of the arguments, the arguments
    unchanged. -/
theorem run : θ_run defs (onTc (τ := τ) (main (F := Ideal))) ⟨m, fun _ => 0, ρ⟩ fun r => ∀ c : Dev nD,
      r.2.mem ((c : Thread nD τ).loc main_v3_0) = Cert.Attn.output (m ((c : Thread nD τ).loc main_arg0))
        (m ((c : Thread nD τ).loc main_arg1)) (m ((c : Thread nD τ).loc main_arg2))
        (biasOf (m ((c : Thread nD τ).loc main_arg3)))
      ∧ r.2.mem ((c : Thread nD τ).loc main_v3_1) = Cert.Attn.weights (m ((c : Thread nD τ).loc main_arg0))
        (m ((c : Thread nD τ).loc main_arg1)) (biasOf (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_output m c), (h c).2.1.trans (final_weights m c),
      (h c).2.2⟩)
    (Value.run_blocks m ρ)

end Cert.KernelIdeal.Arr

end
-- ==== Proof.LibAttnOps.lean ====
/-
  Reading the array operations of a batched attention at an entry, on the extended reals.

  * A batched product of rows against rows, [n, a, d] x [n, b, d] -> [n, a, b] (the einsum "tqd,tkd->tqk"), accumulated
    onto the zero array, is at (w, p, q) the sum over k of left (w, p, k) * right (w, q, k).
  * A batched product of rows against columns, [n, a, k] x [n, k, d] -> [n, a, d] ("tqk,tkd->tqd"), onto zero, is at
    (w, p, e) the sum over j of left (w, p, j) * right (w, j, e).
  * A maximum from -inf over the last axis of a three-axis array is at (w, p) the fold of max over the entries (w, p, j);
    the host's maximum over the last axis of a four-axis array is at (b, h, p) the fold of max from the initial value.
  * Merging the two leading axes [a, b, c] -> [a b, c], or splitting them back, moves no entry: row p b + q is (p, q).
  * A [1, b, c] array seen as [b, c], as [1, b, c] again and repeated to [a, b, c] reads at (w, i, j) its entry (0, i, j);
    a vector of c entries seen as [1, c] and repeated to [N, c] reads at (n, r) its entry r.
  * Four arrays [a, b, k] laid side by side along the last axis read at column n k + e the n-th array's column e.
  All extents are variables.
-/
import Idealize.ShloMosaic.Lib.ValueIdx
import Idealize.ShloMosaic.Lib.Pipeline.Value
import Idealize.ShloMosaic.PureOps.Ideal.Laws

noncomputable section

open scoped BigOperators

namespace Cert.AttnOps

open Idealize.ShloMosaic Idealize.ShloMosaic.ValueIdx

/-! ## The two batched products -/

/-- The dimension numbers of [n, a, d] x [n, b, d] -> [n, a, b]: batch axis 0, both last axes contracted. -/
abbrev dimsQK {n a b d : ℕ}
    (wf : DotDims.WF ⟨3, ![n, a, d]⟩ ⟨3, ![n, b, d]⟩ ⟨3, ![n, a, b]⟩ [2] [2] [1] [1] [0] [0]) :
    DotDims ⟨3, ![n, a, d]⟩ ⟨3, ![n, b, d]⟩ ⟨3, ![n, a, b]⟩ :=
  ⟨[2], [2], [1], [1], [0], [0], wf⟩

/-- Rows against rows, batched, onto zero: at (w, p, q) the dot product of row (w, p) of the left factor with row
    (w, q) of the right one. -/
theorem rows_rows_apply {n a b d : ℕ} {φ₁ φ₂ : FTy}
    (wf : DotDims.WF ⟨3, ![n, a, d]⟩ ⟨3, ![n, b, d]⟩ ⟨3, ![n, a, b]⟩ [2] [2] [1] [1] [0] [0])
    (prec : Option ContractPrecision) (L : FVec Ideal ⟨3, ![n, a, d]⟩ φ₁) (R : FVec Ideal ⟨3, ![n, b, d]⟩ φ₂)
    (w : Fin n) (p : Fin a) (q : Fin b) :
    FloatOps.matmul (dimsQK wf) prec L R (constant ⟨3, ![n, a, b]⟩ .f32 0x00000000#32) (ix3 w p q)
      = ∑ k : Fin d, L (ix3 w p k) * R (ix3 w q k) := by
  rw [Ideal.matmul_constant_zero_apply, ← Equiv.sum_comp (contrEquiv1 (dimsQK wf) d rfl rfl).symm]
  refine Finset.sum_congr rfl fun k _ => ?_
  have hk := contrEquiv1_symm_val (dimsQK wf) d rfl rfl k
  have el : (dimsQK wf).lhsIdx (ix3 w p q) ((contrEquiv1 (dimsQK wf) d rfl rfl).symm k) = ix3 w p k :=
    funext fun ax => Fin.ext (by
      match ax with
      | ⟨0, _⟩ => rfl
      | ⟨1, _⟩ => rfl
      | ⟨2, _⟩ => exact ((dimsQK wf).lhsIdx_val_of_single rfl _ _).trans hk)
  have er : (dimsQK wf).rhsIdx (ix3 w p q) ((contrEquiv1 (dimsQK wf) d rfl rfl).symm k) = ix3 w q k :=
    funext fun ax => Fin.ext (by
      match ax with
      | ⟨0, _⟩ => rfl
      | ⟨1, _⟩ => rfl
      | ⟨2, _⟩ => exact ((dimsQK wf).rhsIdx_val_of_single rfl _ _).trans hk)
  rw [el, er]

/-- The dimension numbers of [n, a, k] x [n, k, d] -> [n, a, d]: batch axis 0, the left's last axis against the right's
    middle one. -/
abbrev dimsAV {n a k d : ℕ}
    (wf : DotDims.WF ⟨3, ![n, a, k]⟩ ⟨3, ![n, k, d]⟩ ⟨3, ![n, a, d]⟩ [2] [1] [1] [2] [0] [0]) :
    DotDims ⟨3, ![n, a, k]⟩ ⟨3, ![n, k, d]⟩ ⟨3, ![n, a, d]⟩ :=
  ⟨[2], [1], [1], [2], [0], [0], wf⟩

/-- Rows against columns, batched, onto zero: at (w, p, e) the sum over j of left (w, p, j) * right (w, j, e). -/
theorem rows_cols_apply {n a k d : ℕ} {φ₁ φ₂ : FTy}
    (wf : DotDims.WF ⟨3, ![n, a, k]⟩ ⟨3, ![n, k, d]⟩ ⟨3, ![n, a, d]⟩ [2] [1] [1] [2] [0] [0])
    (prec : Option ContractPrecision) (L : FVec Ideal ⟨3, ![n, a, k]⟩ φ₁) (R : FVec Ideal ⟨3, ![n, k, d]⟩ φ₂)
    (w : Fin n) (p : Fin a) (e : Fin d) :
    FloatOps.matmul (dimsAV wf) prec L R (constant ⟨3, ![n, a, d]⟩ .f32 0x00000000#32) (ix3 w p e)
      = ∑ j : Fin k, L (ix3 w p j) * R (ix3 w j e) := by
  rw [Ideal.matmul_constant_zero_apply, ← Equiv.sum_comp (contrEquiv1 (dimsAV wf) k rfl rfl).symm]
  refine Finset.sum_congr rfl fun j _ => ?_
  have hj := contrEquiv1_symm_val (dimsAV wf) k rfl rfl j
  have el : (dimsAV wf).lhsIdx (ix3 w p e) ((contrEquiv1 (dimsAV wf) k rfl rfl).symm j) = ix3 w p j :=
    funext fun ax => Fin.ext (by
      match ax with
      | ⟨0, _⟩ => rfl
      | ⟨1, _⟩ => rfl
      | ⟨2, _⟩ => exact ((dimsAV wf).lhsIdx_val_of_single rfl _ _).trans hj)
  have er : (dimsAV wf).rhsIdx (ix3 w p e) ((contrEquiv1 (dimsAV wf) k rfl rfl).symm j) = ix3 w j e :=
    funext fun ax => Fin.ext (by
      match ax with
      | ⟨0, _⟩ => rfl
      | ⟨1, _⟩ => exact ((dimsAV wf).rhsIdx_val_of_single rfl _ _).trans hj
      | ⟨2, _⟩ => rfl)
  rw [el, er]

/-! ## Maxima over the last axis -/

/-- The maximum over the last axis of a three-axis array, from -inf: at (w, p) the fold of max over the entries
    (w, p, j). -/
theorem max_last3_apply {n0 n1 n2 : ℕ} (src : FVec Ideal ⟨3, ![n0, n1, n2]⟩ .f32)
    (h : (⟨3, ![n0, n1, n2]⟩ : Shape).Reduces [2] ⟨2, ![n0, n1]⟩) (hφ : FKind.Formats .f32)
    (hacc : (0xFF800000#32 : BitVec 32) = 0xFF800000#32) (w : Fin n0) (p : Fin n1) :
    multiReduction .maximumf [2] ⟨2, ![n0, n1]⟩ src 0xFF800000#32 h hφ hacc (ix2 w p)
      = (Finset.univ : Finset (Fin n2)).fold max (Ideal.ofBits .f32 0xFF800000#32) (fun j => src (ix3 w p j)) :=
  (Ideal.multiReduction_maximumf_single src 0xFF800000#32 h hφ hacc (ix2 w p)).trans
    (Finset.fold_congr fun j _ => congrArg src (funext fun ax => Fin.ext (by
      match ax with
      | ⟨0, _⟩ => rfl
      | ⟨1, _⟩ => rfl
      | ⟨2, _⟩ => rfl)))

/-- The reduced index (b, h, p) with coordinate j put back on the last axis is (b, h, p, j). -/
theorem lift_last4 {n0 n1 n2 n3 : ℕ} (h : (⟨4, ![n0, n1, n2, n3]⟩ : Shape).Reduces [3] ⟨3, ![n0, n1, n2]⟩)
    (b : Fin n0) (hh : Fin n1) (p : Fin n2) (j : Fin ((⟨4, ![n0, n1, n2, n3]⟩ : Shape).size 3)) :
    h.lift (ix3 b hh p) j = ix4 b hh p (⟨j.val, j.isLt⟩ : Fin n3) := by
  funext ax; apply Fin.ext
  fin_cases ax <;> rfl

/-- The host's reduction with a maximum body over the last axis of a four-axis array: at (b, h, p) the fold of max from
    the initial value over the entries (b, h, p, j). -/
theorem host_max_last4_apply {n0 n1 n2 n3 : ℕ} (x : FVec Ideal ⟨4, ![n0, n1, n2, n3]⟩ .f32)
    (init : FVec Ideal ⟨0, ![]⟩ .f32)
    (h' : (⟨4, ![n0, n1, n2, n3]⟩ : Shape).ReducesTo [3] ⟨3, ![n0, n1, n2]⟩)
    (h : (⟨4, ![n0, n1, n2, n3]⟩ : Shape).Reduces [3] ⟨3, ![n0, n1, n2]⟩)
    (hu : 0 < (⟨0, ![]⟩ : Shape).numel) (b : Fin n0) (hh : Fin n1) (p : Fin n2) :
    Host.reduce FloatOps.maximumf x init h' hu (ix3 b hh p)
      = (Finset.univ : Finset (Fin n3)).fold max (init ix0) (fun j => x (ix4 b hh p j)) := by
  rw [Host.reduce_eq_fold_single FloatOps.maximumf x init h' h hu, eq_ix0 (Shape.Idx.first hu)]
  have hf : (x ∘ h.lift (ix3 b hh p)) = fun j : Fin n3 => x (ix4 b hh p j) :=
    funext fun j => congrArg x (lift_last4 h b hh p j)
  exact congrArg (fun f => Finset.fold max (init ix0) f (Finset.univ : Finset (Fin n3))) hf

/-! ## Re-laid arrays -/

variable {α : Type}

/-- [a, b, c] with its two leading axes merged into N = a b rows: row p b + q, column r, is the entry (p, q, r). -/
theorem merge_rows_apply {a b c N : ℕ} (v : (⟨3, ![a, b, c]⟩ : Shape).Idx → α)
    (h : (⟨3, ![a, b, c]⟩ : Shape).ShapeCasts ⟨2, ![N, c]⟩) (p : Fin a) (q : Fin b) (r : Fin c) (n : Fin N)
    (hn : n.val = p.val * b + q.val) :
    shapeCast ⟨2, ![N, c]⟩ v h (ix2 n r) = v (ix3 p q r) := by
  refine shapeCast_apply v h (ix2 n r) (ix3 p q r) ?_
  rw [Shape.rowMajor_val_two, Shape.rowMajor_val_three]
  show (p.val * b + q.val) * c + r.val = n.val * c + r.val
  rw [hn]

/-- [N, c] with its N = a b rows split into [a, b]: the entry (p, q, r) is row p b + q, column r. -/
theorem split_rows_apply {a b c N : ℕ} (v : (⟨2, ![N, c]⟩ : Shape).Idx → α)
    (h : (⟨2, ![N, c]⟩ : Shape).ShapeCasts ⟨3, ![a, b, c]⟩) (p : Fin a) (q : Fin b) (r : Fin c) (n : Fin N)
    (hn : n.val = p.val * b + q.val) :
    shapeCast ⟨3, ![a, b, c]⟩ v h (ix3 p q r) = v (ix2 n r) := by
  refine shapeCast_apply v h (ix3 p q r) (ix2 n r) ?_
  rw [Shape.rowMajor_val_two, Shape.rowMajor_val_three]
  show n.val * c + r.val = (p.val * b + q.val) * c + r.val
  rw [hn]

/-- A [1, b, c] array seen as [b, c], as [1, b, c] again, and repeated to [a, b, c]: at (w, i, j) its entry
    (0, i, j). -/
theorem slab_repeated_apply {a b c : ℕ} (v : (⟨3, ![1, b, c]⟩ : Shape).Idx → α)
    (h1 : (⟨3, ![1, b, c]⟩ : Shape).ShapeCasts ⟨2, ![b, c]⟩)
    (h2 : (⟨2, ![b, c]⟩ : Shape).ShapeCasts ⟨3, ![1, b, c]⟩)
    (h3 : (⟨3, ![1, b, c]⟩ : Shape).Broadcasts ⟨3, ![a, b, c]⟩) (w : Fin a) (i : Fin b) (j : Fin c) :
    broadcastTo ⟨3, ![a, b, c]⟩ (shapeCast ⟨3, ![1, b, c]⟩ (shapeCast ⟨2, ![b, c]⟩ v h1) h2) h3 (ix3 w i j)
      = v (ix3 (0 : Fin 1) i j) := by
  rw [shapeCast_shapeCast]
  refine broadcastTo_apply v h3 (ix3 w i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

/-- A vector of c entries seen as [1, c] and repeated to [N, c]: at (n, r) its entry r. -/
theorem row_repeated_apply {N c : ℕ} (v : (⟨1, ![c]⟩ : Shape).Idx → α)
    (h1 : (⟨1, ![c]⟩ : Shape).ShapeCasts ⟨2, ![1, c]⟩)
    (h2 : (⟨2, ![1, c]⟩ : Shape).Broadcasts ⟨2, ![N, c]⟩) (n : Fin N) (r : Fin c) :
    broadcastTo ⟨2, ![N, c]⟩ (shapeCast ⟨2, ![1, c]⟩ v h1) h2 (ix2 n r) = v (ix1 r) := by
  refine (broadcastTo_apply _ h2 (ix2 n r) (ix2 (0 : Fin 1) r) fun ax => ?_).trans ?_
  · match ax with
    | ⟨0, _⟩ => rfl
    | ⟨1, _⟩ =>
      show r.val = if c = 1 then 0 else r.val
      split
      · have := r.isLt; omega
      · rfl
  · refine shapeCast_apply v h1 (ix2 (0 : Fin 1) r) (ix1 r) ?_
    rw [Shape.rowMajor_val_one, Shape.rowMajor_val_two]
    show r.val = 0 * c + r.val
    omega

/-- Four [a, b, k] arrays side by side along the last axis: column n k + e of the result is column e of the n-th. -/
theorem join4_apply {a b k K : ℕ} (x0 x1 x2 x3 : (⟨3, ![a, b, k]⟩ : Shape).Idx → α)
    (h : Shape.Concatenates (([⟨⟨3, ![a, b, k]⟩, x0⟩, ⟨⟨3, ![a, b, k]⟩, x1⟩, ⟨⟨3, ![a, b, k]⟩, x2⟩, ⟨⟨3, ![a, b, k]⟩, x3⟩] :
      List ((s : Shape) × (s.Idx → α))).map (·.1)) ⟨3, ![a, b, K]⟩ 2)
    (p : Fin a) (q : Fin b) (e : Fin k) (c : Fin K) :
    (c.val = e.val → concatenate ⟨3, ![a, b, K]⟩ 2 [⟨⟨3, ![a, b, k]⟩, x0⟩, ⟨⟨3, ![a, b, k]⟩, x1⟩, ⟨⟨3, ![a, b, k]⟩, x2⟩, ⟨⟨3, ![a, b, k]⟩, x3⟩] h (ix3 p q c) = x0 (ix3 p q e))
    ∧ (c.val = k + e.val → concatenate ⟨3, ![a, b, K]⟩ 2 [⟨⟨3, ![a, b, k]⟩, x0⟩, ⟨⟨3, ![a, b, k]⟩, x1⟩, ⟨⟨3, ![a, b, k]⟩, x2⟩, ⟨⟨3, ![a, b, k]⟩, x3⟩] h (ix3 p q c) = x1 (ix3 p q e))
    ∧ (c.val = k + k + e.val → concatenate ⟨3, ![a, b, K]⟩ 2 [⟨⟨3, ![a, b, k]⟩, x0⟩, ⟨⟨3, ![a, b, k]⟩, x1⟩, ⟨⟨3, ![a, b, k]⟩, x2⟩, ⟨⟨3, ![a, b, k]⟩, x3⟩] h (ix3 p q c) = x2 (ix3 p q e))
    ∧ (c.val = k + k + k + e.val → concatenate ⟨3, ![a, b, K]⟩ 2 [⟨⟨3, ![a, b, k]⟩, x0⟩, ⟨⟨3, ![a, b, k]⟩, x1⟩, ⟨⟨3, ![a, b, k]⟩, x2⟩, ⟨⟨3, ![a, b, k]⟩, x3⟩] h (ix3 p q c) = x3 (ix3 p q e)) := by
  have off : ∀ bx : Fin (⟨3, ![a, b, k]⟩ : Shape).rank, bx.cast (rfl : (⟨3, ![a, b, k]⟩ : Shape).rank = (⟨3, ![a, b, K]⟩ : Shape).rank) ≠ (2 : Fin 3) →
      ((ix3 p q e : (⟨3, ![a, b, k]⟩ : Shape).Idx) bx).val = ((ix3 p q c : (⟨3, ![a, b, K]⟩ : Shape).Idx) (bx.cast rfl)).val := by
    intro bx hb
    match bx with
    | ⟨0, _⟩ => rfl
    | ⟨1, _⟩ => rfl
    | ⟨2, _⟩ => exact absurd rfl hb
  refine ⟨fun hc => ?_, fun hc => ?_, fun hc => ?_, fun hc => ?_⟩
  · exact concatenate_apply_piece 2 _ h (ix3 p q c) 0 (by simp) _ x0 rfl rfl 0 rfl (ix3 p q e) off
      (by show 0 + e.val = c.val; omega)
  · exact concatenate_apply_piece 2 _ h (ix3 p q c) 1 (by simp) _ x1 rfl rfl k (by simp) (ix3 p q e) off
      (by show k + e.val = c.val; omega)
  · exact concatenate_apply_piece 2 _ h (ix3 p q c) 2 (by simp) _ x2 rfl rfl (k + k) (by simp) (ix3 p q e) off
      (by show k + k + e.val = c.val; omega)
  · exact concatenate_apply_piece 2 _ h (ix3 p q c) 3 (by simp) _ x3 rfl rfl (k + k + k) (by simp [Nat.add_assoc]) (ix3 p q e) off
      (by show k + k + k + e.val = c.val; omega)

end Cert.AttnOps

end
-- ==== Proof.RefIsSpec.lean ====
/-
  The reference program is the specification.

  The reference computes, over whole arrays, logits = (q · kᵀ) / sqrt 64 + bias, the maximum of each row of logits
  taken from -∞, the exponentials of the logits shifted by their row's maximum, each row's sum of exponentials,
  the quotients (the weights), and the weights against v.  Read at the entry (b, h, s, t), every one of these arrays
  is the corresponding function of one query row: Q = q[b,h,s,·] against K = k[b,h,·,·], V = v[b,h,·,·] and the
  row's bias B = bias[s,·].  The bias array (the padded mask times -1e9) is kept as one term and never opened.

  The only arithmetic fact used is that a quotient by the square root of 64 is a product with 1/8; everything else
  is reading an array operation at an index: a product of arrays is the sum over the contracted axis, a broadcast
  reads its operand at the coordinates it keeps, a reduction over the last axis is a fold (for the maximum) or a sum
  over that axis.
-/
import proofs.«121620_j32925219291316_2_alg».proof.Proof.Gen.ReferenceIdeal.Read
import proofs.«121620_j32925219291316_2_alg».proof.Proof.Spec
import proofs.«121620_j32925219291316_2_alg».proof.Proof.LibAttnOps
import Idealize.ShloMosaic.Lib.ValueIdx
import Idealize.ShloMosaic.Lib.Pipeline.Value
import Idealize.ShloMosaic.PureOps.Ideal.Laws

noncomputable section

open scoped BigOperators

namespace Cert.ReferenceIdeal.RefSpec

open Cert.ReferenceIdeal Cert.ReferenceIdeal.Gen Idealize.ShloMosaic Idealize.ShloMosaic.TcCoe Idealize.SL.Sem
  Idealize.ShloMosaic.StableHlo Idealize.ShloMosaic.ValueIdx

variable (x0 x1 x2 : (⟨S8x16x1024x64, .f32⟩ : BufTy).Contents (Elt Ideal))
  (x3 : (⟨S1023x1023, .f32⟩ : BufTy).Contents (Elt Ideal))

/-! ## The rows of the arrays -/

/-- The query row (b, h, s) of q. -/
abbrev qRow (b : Fin 8) (h : Fin 16) (s : Fin 1024) : Fin 64 → EReal := fun d => x0 (ix4 b h s d)
/-- The key rows of the head (b, h) of k. -/
abbrev kRows (b : Fin 8) (h : Fin 16) : Fin 1024 → Fin 64 → EReal := fun t d => x1 (ix4 b h t d)
/-- The value rows of the head (b, h) of v. -/
abbrev vRows (b : Fin 8) (h : Fin 16) : Fin 1024 → Fin 64 → EReal := fun t d => x2 (ix4 b h t d)
/-- Row s of the bias array. -/
abbrev bRow (s : Fin 1024) : Fin 1024 → EReal := fun t => Read.val_main_v6 (F := Ideal) x3 (ix2 s t)

/-! ## The logits -/

/-- The logit (b, h, s, t): the product q · kᵀ there is the sum over the 64 shared coordinates, the quotient by the
    square root of 64 is the product with 1/8, and the two broadcasts of the bias keep the coordinates (s, t). -/
theorem logit_at (b : Fin 8) (h : Fin 16) (s t : Fin 1024) :
    Read.val_main_v9 (F := Ideal) x0 x1 x3 (ix4 b h s t)
      = Attn.rowLogit (qRow x0 b h s) (kRows x1 b h) (bRow x3 s) t := by
  have el : ∀ k : Fin 64, Read.lidx_main_v0 (ix4 b h s t) k = ix4 b h s k := fun k =>
    funext fun a => Fin.ext (by match a with | ⟨0, _⟩ => rfl | ⟨1, _⟩ => rfl | ⟨2, _⟩ => rfl | ⟨3, _⟩ => rfl)
  have er : ∀ k : Fin 64, Read.ridx_main_v0 (ix4 b h s t) k = ix4 b h t k := fun k =>
    funext fun a => Fin.ext (by match a with | ⟨0, _⟩ => rfl | ⟨1, _⟩ => rfl | ⟨2, _⟩ => rfl | ⟨3, _⟩ => rfl)
  have eb : Read.idx_main_v7 (Read.idx_main_v8 (ix4 b h s t)) = ix2 s t :=
    funext fun a => Fin.ext (by match a with | ⟨0, _⟩ => rfl | ⟨1, _⟩ => rfl)
  rw [Read.val_main_v9_apply, Read.val_main_v3_apply, Read.val_main_v0_apply, Read.val_main_v2_apply,
    Read.val_main_v1_apply, Read.val_main_cst_apply, Read.val_main_v8_apply, Read.val_main_v7_apply, eb]
  simp only [Ideal.addf_def, Ideal.hostDivf_def, Ideal.hostUnary_sqrt_def, Ideal.ofBits_def, el, er]
  rw [Attn.div_sqrt_sixtyfour]
  rfl

/-! ## The row maximum -/

/-- The maximum of row (b, h, s): the reduction over the last axis is the fold of max from -∞ over the row's logits,
    and the further maximum with -∞ changes nothing. -/
theorem max_at (b : Fin 8) (h : Fin 16) (s : Fin 1024) :
    Read.val_main_v12 (F := Ideal) x0 x1 x3 (ix3 b h s)
      = Attn.rowMax (qRow x0 b h s) (kRows x1 b h) (bRow x3 s) := by
  have hf : (fun j : Fin 1024 => Read.val_main_v9 (F := Ideal) x0 x1 x3 (ix4 b h s j))
      = fun j => Attn.rowLogit (qRow x0 b h s) (kRows x1 b h) (bRow x3 s) j :=
    funext fun j => logit_at x0 x1 x3 b h s j
  rw [Read.val_main_v12_apply, Read.val_main_v11_apply, Read.val_main_cst_2_apply]
  unfold Read.val_main_v10
  rw [AttnOps.host_max_last4_apply (n0 := 8) (n1 := 16) (n2 := 1024) (n3 := 1024)
    (Read.val_main_v9 (F := Ideal) x0 x1 x3) (Read.val_main_cst_1 (F := Ideal))
    Facts₀.reducesTo_S8x16x1024x1024_S8x16x1024_d3 (by decide) Facts₀.h_S_ b h s, hf]
  simp only [Ideal.maximumf_def, Ideal.ofBits_def]
  rw [Attn.max_negInf]
  rfl

/-! ## The exponentials, their sum, the weights -/

/-- The exponential (b, h, s, t): the row maximum, broadcast twice, is read back at (b, h, s). -/
theorem exp_at (b : Fin 8) (h : Fin 16) (s t : Fin 1024) :
    Read.val_main_v16 (F := Ideal) x0 x1 x3 (ix4 b h s t)
      = Attn.rowExp (qRow x0 b h s) (kRows x1 b h) (bRow x3 s) t := by
  have e : Read.idx_main_v13 (Read.idx_main_v14 (ix4 b h s t)) = ix3 b h s :=
    funext fun a => Fin.ext (by match a with | ⟨0, _⟩ => rfl | ⟨1, _⟩ => rfl | ⟨2, _⟩ => rfl)
  rw [Read.val_main_v16_apply, Read.val_main_v15_apply, Read.val_main_v14_apply, Read.val_main_v13_apply, e,
    logit_at, max_at]
  simp only [Ideal.hostUnary_exp_def, Ideal.subf_def]
  rfl

/-- The sum of row (b, h, s)'s exponentials: the reduction starts from zero. -/
theorem sum_at (b : Fin 8) (h : Fin 16) (s : Fin 1024) :
    Read.val_main_v17 (F := Ideal) x0 x1 x3 (ix3 b h s)
      = Attn.rowSum (qRow x0 b h s) (kRows x1 b h) (bRow x3 s) := by
  have e : ∀ k : Fin 1024, Read.idx_main_v17 (ix3 b h s) k = ix4 b h s k := fun k =>
    funext fun a => Fin.ext (by match a with | ⟨0, _⟩ => rfl | ⟨1, _⟩ => rfl | ⟨2, _⟩ => rfl | ⟨3, _⟩ => rfl)
  rw [Read.val_main_v17_apply, Read.val_main_cst_3_apply]
  simp only [Ideal.ofBits_def, e, exp_at]
  rw [Ideal.ofBits_zero_f32, zero_add]
  rfl

/-- The weight (b, h, s, t): the row's sum, broadcast twice, is read back at (b, h, s). -/
theorem weight_at (b : Fin 8) (h : Fin 16) (s t : Fin 1024) :
    Read.val_main_v20 (F := Ideal) x0 x1 x3 (ix4 b h s t)
      = Attn.rowWeight (qRow x0 b h s) (kRows x1 b h) (bRow x3 s) t := by
  have e : Read.idx_main_v18 (Read.idx_main_v19 (ix4 b h s t)) = ix3 b h s :=
    funext fun a => Fin.ext (by match a with | ⟨0, _⟩ => rfl | ⟨1, _⟩ => rfl | ⟨2, _⟩ => rfl)
  rw [Read.val_main_v20_apply, Read.val_main_v19_apply, Read.val_main_v18_apply, e, exp_at, sum_at]
  simp only [Ideal.hostDivf_def]
  rfl

/-! ## The output -/

/-- The output entry (b, h, s, d): the product of the weights with v there is the sum over the key rows. -/
theorem out_at (b : Fin 8) (h : Fin 16) (s : Fin 1024) (d : Fin 64) :
    Read.val_main_v21 (F := Ideal) x0 x1 x2 x3 (ix4 b h s d)
      = Attn.rowOut (qRow x0 b h s) (kRows x1 b h) (vRows x2 b h) (bRow x3 s) d := by
  have el : ∀ k : Fin 1024, Read.lidx_main_v21 (ix4 b h s d) k = ix4 b h s k := fun k =>
    funext fun a => Fin.ext (by match a with | ⟨0, _⟩ => rfl | ⟨1, _⟩ => rfl | ⟨2, _⟩ => rfl | ⟨3, _⟩ => rfl)
  have er : ∀ k : Fin 1024, Read.ridx_main_v21 (ix4 b h s d) k = ix4 b h k d := fun k =>
    funext fun a => Fin.ext (by match a with | ⟨0, _⟩ => rfl | ⟨1, _⟩ => rfl | ⟨2, _⟩ => rfl | ⟨3, _⟩ => rfl)
  rw [Read.val_main_v21_apply]
  simp only [el, er, weight_at]
  rfl

/-! ## The two arrays -/

/-- The reference's array of weights is the specification's. -/
theorem ref_weights (x0 x1 : (⟨S8x16x1024x64, .f32⟩ : BufTy).Contents (Elt Ideal))
    (x3 : (⟨S1023x1023, .f32⟩ : BufTy).Contents (Elt Ideal)) :
    Read.val_main_v20 (F := Ideal) x0 x1 x3 = Cert.Attn.weights x0 x1 (Read.val_main_v6 (F := Ideal) x3) := by
  funext i
  obtain ⟨b, h, s, t, rfl⟩ : ∃ (b : Fin 8) (h : Fin 16) (s t : Fin 1024), i = ix4 b h s t :=
    ⟨i 0, i 1, i 2, i 3, eq_ix4 i⟩
  exact weight_at x0 x1 x3 b h s t

/-- The reference's output array is the specification's. -/
theorem ref_output (x0 x1 x2 : (⟨S8x16x1024x64, .f32⟩ : BufTy).Contents (Elt Ideal))
    (x3 : (⟨S1023x1023, .f32⟩ : BufTy).Contents (Elt Ideal)) :
    Read.val_main_v21 (F := Ideal) x0 x1 x2 x3 = Cert.Attn.output x0 x1 x2 (Read.val_main_v6 (F := Ideal) x3) := by
  funext i
  obtain ⟨b, h, s, d, rfl⟩ : ∃ (b : Fin 8) (h : Fin 16) (s : Fin 1024) (d : Fin 64), i = ix4 b h s d :=
    ⟨i 0, i 1, i 2, i 3, eq_ix4 i⟩
  exact out_at x0 x1 x2 x3 b h s d

end Cert.ReferenceIdeal.RefSpec

end
-- ==== Proof.lean ====
/-
  Attention with an additive bias: the tiled kernel against the whole-array reference, on the extended reals.

  Both programs compute, for every batch b, head h and query row s,
    logit t  = (Σ_d q[b,h,s,d] · k[b,h,t,d]) · c + bias[s,t],      bias = (the mask, a zero row and column in front) · (-1e9),
    weight t = exp(logit t - max_t logit t) / Σ_t exp(logit t - max_t logit t),
    out d    = Σ_t weight t · v[b,h,t,d].
  The kernel multiplies by c = 1/8; the reference divides by the square root of 64.  These agree on every extended real,
  because 64 = 8² and a quotient by a non-zero real is the product with its reciprocal; no other law is needed, so the
  inputs' finiteness is never used.  The kernel walks a grid of 8 · 16 · 4 points, each writing 256 query rows of one
  head; a row of its result depends on that query row and that row of the bias only, so the blocks the points write
  are blocks of the one whole-array function, and they tile both result arrays.  The reference's 29 array operations
  are read at an index one by one and give the same function.  The bias array is the same term in both programs and
  is never opened.
-/
import proofs.«121620_j32925219291316_2_alg».proof.Defs
import proofs.«121620_j32925219291316_2_alg».proof.Proof.Gen.Kernel
import proofs.«121620_j32925219291316_2_alg».proof.Proof.Gen.Kernel.Frame
import proofs.«121620_j32925219291316_2_alg».proof.Proof.Gen.KernelIdeal
import proofs.«121620_j32925219291316_2_alg».proof.Proof.Gen.KernelIdeal.Frame
import proofs.«121620_j32925219291316_2_alg».proof.Proof.Gen.KernelIdeal.Value
import proofs.«121620_j32925219291316_2_alg».proof.Proof.Gen.ReferenceIdeal
import proofs.«121620_j32925219291316_2_alg».proof.Proof.Gen.ReferenceIdeal.Run
import proofs.«121620_j32925219291316_2_alg».proof.Proof.Gen.ReferenceIdeal.Read
import proofs.«121620_j32925219291316_2_alg».proof.Proof.Gen.Pre_finite_inputs
import proofs.«121620_j32925219291316_2_alg».proof.Proof.KernelArray
import proofs.«121620_j32925219291316_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The bias array the reference computes is the one the kernel's host operations compute: the same operations on the
    same mask. -/
theorem bias_eq (x3 : Cert.ReferenceIdeal.S1023x1023.Idx → EReal) :
    Cert.ReferenceIdeal.Read.val_main_v6 (F := Ideal) x3 = Cert.KernelIdeal.Arr.biasOf x3 := rfl

/-- From memories that agree on q, k, v and the mask, both programs end with the specification's output and weights. -/
theorem algebraic : Cert.algebraic_KernelIdeal_ReferenceIdeal := by
  intro m ρ m' ρ' _ hagree
  refine ⟨_, _, Cert.KernelIdeal.Arr.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v21_eq m' c).trans ((Cert.ReferenceIdeal.RefSpec.ref_output _ _ _ _).trans ?_)
    rw [bias_eq, (hagree c).1, (hagree c).2.1, (hagree c).2.2.1, (hagree c).2.2.2]
  · refine (Cert.ReferenceIdeal.Read.val_main_v20_eq _ _ _).trans ((Cert.ReferenceIdeal.RefSpec.ref_weights _ _ _).trans ?_)
    rw [bias_eq, (hagree c).1, (hagree c).2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
